-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x256 .f32) (main_arg1 : IVec S2x1600000 32) (main_arg2 : FVec F S1600000 .f32) (main_arg3 : FVec F S256x128 .f32) (main_arg4 : FVec F S128 .f32) (main_arg5 : FVec F S128x64 .f32) (main_arg6 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S2000x256 : Shape := ⟨2, ![2000, 256]⟩
abbrev S2000x128 : Shape := ⟨2, ![2000, 128]⟩
abbrev S1650000x128 : Shape := ⟨2, ![1650000, 128]⟩
abbrev S1x128 : Shape := ⟨2, ![1, 128]⟩
abbrev S5000x128 : Shape := ⟨2, ![5000, 128]⟩
abbrev S50000x64 : Shape := ⟨2, ![50000, 64]⟩
abbrev S2000x64 : Shape := ⟨2, ![2000, 64]⟩
abbrev S1650000x64 : Shape := ⟨2, ![1650000, 64]⟩
abbrev S1x64 : Shape := ⟨2, ![1, 64]⟩
abbrev S5000x64 : Shape := ⟨2, ![5000, 64]⟩
abbrev S5000 : Shape := ⟨1, ![5000]⟩
abbrev S5000x1 : Shape := ⟨2, ![5000, 1]⟩

abbrev nBuf : Space → Nat
  | .hbm => 87
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S50000, .i32⟩
  | .hbm, ⟨8, _⟩ => ⟨S1x1600000, .i32⟩
  | .hbm, ⟨9, _⟩ => ⟨S1600000, .i32⟩
  | .hbm, ⟨10, _⟩ => ⟨S1650000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S_, .f32⟩
  | .hbm, ⟨15, _⟩ => ⟨S50000, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S1650000, .f32⟩
  | .hbm, ⟨39, _⟩ => ⟨S_, .i32⟩
  | .hbm, ⟨40, _⟩ => ⟨S1650000, .i32⟩
  | .hbm, ⟨41, _⟩ => ⟨S1650000, .i1⟩
  | .hbm, ⟨42, _⟩ => ⟨S_, .i32⟩
  | .hbm, ⟨43, _⟩ => ⟨S1650000, .i32⟩
  | .hbm, ⟨44, _⟩ => ⟨S1650000, .i32⟩
  | .hbm, ⟨45, _⟩ => ⟨S1650000, .i32⟩
  | .hbm, ⟨46, _⟩ => ⟨S1650000x1, .i32⟩
  | .hbm, ⟨47, _⟩ => ⟨S1650000, .f32⟩
  | .hbm, ⟨48, _⟩ => ⟨S1650000, .f32⟩
  | .hbm, ⟨49, _⟩ => ⟨S50000x128, .f32⟩
  | .hbm, ⟨50, _⟩ => ⟨S1650000x1, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S1650000x1, .f32⟩
  | .hbm, ⟨70, _⟩ => ⟨S_, .i32⟩
  | .hbm, ⟨71, _⟩ => ⟨S1650000, .i32⟩
  | .hbm, ⟨72, _⟩ => ⟨S1650000, .i1⟩
  | .hbm, ⟨73, _⟩ => ⟨S_, .i32⟩
  | .hbm, ⟨74, _⟩ => ⟨S1650000, .i32⟩
  | .hbm, ⟨75, _⟩ => ⟨S1650000, .i32⟩
  | .hbm, ⟨76, _⟩ => ⟨S1650000, .i32⟩
  | .hbm, ⟨77, _⟩ => ⟨S1650000x1, .i32⟩
  | .hbm, ⟨78, _⟩ => ⟨S1650000x64, .f32⟩
  | .hbm, ⟨79, _⟩ => ⟨S1650000x64, .f32⟩
  | .hbm, ⟨80, _⟩ => ⟨S1650000x64, .f32⟩
  | .hbm, ⟨81, _⟩ => ⟨S_, .f32⟩
  | .hbm, ⟨82, _⟩ => ⟨S50000x64, .f32⟩
  | .hbm, ⟨83, _⟩ => ⟨S1650000x1, .i32⟩
  | .hbm, ⟨84, _⟩ => ⟨S50000x64, .f32⟩
  | .hbm, ⟨85, _⟩ => ⟨S1x64, .f32⟩
  | .hbm, ⟨86, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_c_10 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S2000x256_S256x128_S2000x128_1_0_0_1_n_n_wf : DotDims.WF S2000x256 S256x128 S2000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S2000x128_S128x64_S2000x64_1_0_0_1_n_n_wf : DotDims.WF S2000x128 S128x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S50000x64.size a
  hwx2_2 : ∀ i : grid2.Coords, EltTy.bits .f32 = 32 ∨ (Rect.block (s := S50000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x1600000 : Shape := ⟨2, ![1, 1600000]⟩
abbrev S1650000 : Shape := ⟨1, ![1650000]⟩
abbrev S_ : Shape := ⟨0, ![]⟩
abbrev S50000x128 : Shape := ⟨2, ![50000, 128]⟩
abbrev S1650000x1 : Shape := ⟨2, ![1650000, 1]⟩
abbrev S1650000x128 : Shape := ⟨2, ![1650000, 128]⟩
abbrev S1x128 : Shape := ⟨2, ![1, 128]⟩
abbrev S50000x64 : Shape := ⟨2, ![50000, 64]⟩
abbrev S1650000x64 : Shape := ⟨2, ![1650000, 64]⟩
abbrev S1x64 : Shape := ⟨2, ![1, 64]⟩
abbrev S50000x1 : Shape := ⟨2, ![50000, 1]⟩

abbrev nBuf : Space → Nat
  | .hbm => 139
  | .vmem => 0
  | .smem => 0
  | _ => 0

abbrev hbmTy0_0 (i : Nat) : BufTy := match i % 128 with
  | 0 => ⟨S50000x256, .f32⟩
  | 1 => ⟨S2x1600000, .i32⟩
  | 2 => ⟨S1600000, .f32⟩
  | 3 => ⟨S256x128, .f32⟩
  | 4 => ⟨S128, .f32⟩
  | 5 => ⟨S128x64, .f32⟩
  | 6 => ⟨S64, .f32⟩
  | 7 => ⟨S50000, .i32⟩
  | 8 => ⟨S1x1600000, .i32⟩
  | 9 => ⟨S1600000, .i32⟩
  | 10 => ⟨S1650000, .i32⟩
  | 11 => ⟨S1x1600000, .i32⟩
  | 12 => ⟨S1600000, .i32⟩
  | 13 => ⟨S1650000, .i32⟩
  | 14 => ⟨S_, .f32⟩
  | 15 => ⟨S50000, .f32⟩
  | 16 => ⟨S1650000, .f32⟩
  | 17 => ⟨S50000x128, .f32⟩
  | 18 => ⟨S_, .f32⟩
  | 19 => ⟨S50000, .f32⟩
  | 20 => ⟨S1650000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S1650000, .i32⟩
  | 32 => ⟨S1650000, .i1⟩
  | 33 => ⟨S_, .i32⟩
  | 34 => ⟨S1650000, .i32⟩
  | 35 => ⟨S1650000, .i32⟩
  | 36 => ⟨S1650000, .i32⟩
  | 37 => ⟨S1650000x1, .i32⟩
  | 38 => ⟨S1650000, .f32⟩
  | 39 => ⟨S1650000, .f32⟩
  | 40 => ⟨S_, .i32⟩
  | 41 => ⟨S1650000, .i32⟩
  | 42 => ⟨S1650000, .i1⟩
  | 43 => ⟨S_, .i32⟩
  | 44 => ⟨S1650000, .i32⟩
  | 45 => ⟨S1650000, .i32⟩
  | 46 => ⟨S1650000, .i32⟩
  | 47 => ⟨S1650000x1, .i32⟩
  | 48 => ⟨S1650000, .f32⟩
  | 49 => ⟨S1650000, .f32⟩
  | 50 => ⟨S1650000x1, .f32⟩
  | 51 => ⟨S_, .i32⟩
  | 52 => ⟨S1650000, .i32⟩
  | 53 => ⟨S1650000, .i1⟩
  | 54 => ⟨S_, .i32⟩
  | 55 => ⟨S1650000, .i32⟩
  | 56 => ⟨S1650000, .i32⟩
  | 57 => ⟨S1650000, .i32⟩
  | 58 => ⟨S1650000x1, .i32⟩
  | 59 => ⟨S1650000x128, .f32⟩
  | 60 => ⟨S1650000x128, .f32⟩
  | 61 => ⟨S1650000x128, .f32⟩
  | 62 => ⟨S_, .f32⟩
  | 63 => ⟨S50000x128, .f32⟩
  | 64 => ⟨S1650000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x64, .f32⟩
  | 73 => ⟨S_, .f32⟩
  | 74 => ⟨S50000, .f32⟩
  | 75 => ⟨S1650000x1, .i32⟩
  | 76 => ⟨S50000, .f32⟩
  | 77 => ⟨S_, .f32⟩
  | 78 => ⟨S50000, .f32⟩
  | 79 => ⟨S50000, .i1⟩
  | 80 => ⟨S50000, .f32⟩
  | 81 => ⟨S_, .f32⟩
  | 82 => ⟨S_, .f32⟩
  | 83 => ⟨S50000, .f32⟩
  | 84 => ⟨S50000, .f32⟩
  | 85 => ⟨S_, .i32⟩
  | 86 => ⟨S1650000, .i32⟩
  | 87 => ⟨S1650000, .i1⟩
  | 88 => ⟨S_, .i32⟩
  | 89 => ⟨S1650000, .i32⟩
  | 90 => ⟨S1650000, .i32⟩
  | 91 => ⟨S1650000, .i32⟩
  | 92 => ⟨S1650000x1, .i32⟩
  | 93 => ⟨S1650000, .f32⟩
  | 94 => ⟨S1650000, .f32⟩
  | 95 => ⟨S_, .i32⟩
  | 96 => ⟨S1650000, .i32⟩
  | 97 => ⟨S1650000, .i1⟩
  | 98 => ⟨S_, .i32⟩
  | 99 => ⟨S1650000, .i32⟩
  | 100 => ⟨S1650000, .i32⟩
  | 101 => ⟨S1650000, .i32⟩
  | 102 => ⟨S1650000x1, .i32⟩
  | 103 => ⟨S1650000, .f32⟩
  | 104 => ⟨S1650000, .f32⟩
  | 105 => ⟨S1650000x1, .f32⟩
  | 106 => ⟨S_, .i32⟩
  | 107 => ⟨S1650000, .i32⟩
  | 108 => ⟨S1650000, .i1⟩
  | 109 => ⟨S_, .i32⟩
  | 110 => ⟨S1650000, .i32⟩
  | 111 => ⟨S1650000, .i32⟩
  | 112 => ⟨S1650000, .i32⟩
  | 113 => ⟨S1650000x1, .i32⟩
  | 114 => ⟨S1650000x64, .f32⟩
  | 115 => ⟨S1650000x64, .f32⟩
  | 116 => ⟨S1650000x64, .f32⟩
  | 117 => ⟨S_, .f32⟩
  | 118 => ⟨S50000x64, .f32⟩
  | 119 => ⟨S1650000x1, .i32⟩
  | 120 => ⟨S50000x64, .f32⟩
  | 121 => ⟨S1x64, .f32⟩
  | 122 => ⟨S50000x64, .f32⟩
  | 123 => ⟨S50000x64, .f32⟩
  | 124 => ⟨S_, .f32⟩
  | 125 => ⟨S50000, .f32⟩
  | 126 => ⟨S_, .f32⟩
  | 127 => ⟨S50000, .f32⟩
  | _ => ⟨S50000x256, .f32⟩

abbrev hbmTy0_1 (i : Nat) : BufTy := match i % 128 with
  | 0 => ⟨S50000, .f32⟩
  | 1 => ⟨S50000x1, .f32⟩
  | 2 => ⟨S50000x64, .f32⟩
  | 3 => ⟨S50000x64, .f32⟩
  | 4 => ⟨S50000x64, .f32⟩
  | 5 => ⟨S_, .f32⟩
  | 6 => ⟨S50000, .f32⟩
  | 7 => ⟨S50000x1, .f32⟩
  | 8 => ⟨S50000x1, .f32⟩
  | 9 => ⟨S50000x64, .f32⟩
  | 10 => ⟨S50000x64, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_call2_v0 : Ref sig .tc := ⟨.hbm, 82, rfl⟩
abbrev main_call2_v1 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_c_13 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_c_15 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_16 : Ref sig .tc := ⟨.hbm, 106, rfl⟩
abbrev main_v75 : Ref sig .tc := ⟨.hbm, 107, rfl⟩
abbrev main_v76 : Ref sig .tc := ⟨.hbm, 108, rfl⟩
abbrev main_c_17 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_call3_cst : Ref sig .tc := ⟨.hbm, 124, rfl⟩
abbrev main_call3_v0 : Ref sig .tc := ⟨.hbm, 125, rfl⟩
abbrev main_call3_cst_0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_v6 : Ref sig .tc := ⟨.hbm, 132, rfl⟩
abbrev main_call3_cst_1 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_v90 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x256_S256x128_S50000x128_1_0_0_1_n_n_wf : DotDims.WF S50000x256 S256x128 S50000x128 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x64_S50000x64_1_0_0_1_n_n_wf : DotDims.WF S50000x128 S128x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KernelRun.lean ====
/-
  The whole program's run with its result named. The program is four kernel launches among stretches of host
  operations; the generated frame follows the buffers' contents from the launch memory through every stretch and every
  launch (`Gen.W0` … `Gen.W9`: after a stretch the host operations' fold, after a launch the launch's arrays at what
  its write-backs leave and every other buffer as it was). Every weakly fair execution ends with each unscoped buffer at
  the last of these contents; read at the result buffer, that is the statement below: the result array ends at
  `Gen.W9` of the result buffer, and the seven argument arrays end as launched.
-/
import proofs.«123015_j22625887715699_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds the last
    boundary's contents at the result buffer, and the argument arrays are as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c)⟩)

end Cert.KernelIdeal.Val

end
-- ==== Proof.Spec.lean ====
/-
  The mathematics both programs compute, entry by entry, on the extended reals.

  A graph-convolution network of two layers on 50000 nodes: every layer multiplies the node features by a weight
  matrix, mixes the rows along the edges of the graph (a gather of the source rows, a scaling by the edge's
  normalised weight, a scatter-add into the target rows: host operations both programs share), and adds a bias; the
  first layer ends with a rectifier, the second with a logarithmic softmax along each row. This file states the three
  dense pieces as functions of whole arrays:

  * `matProd x w`      — entry (r, q) is the sum over k of x(r, k) · w(k, q);
  * `biasRelu a b`     — entry (r, q) is max (a(r, q) + b(0, q)) 0, the bias a one-row matrix;
  * `biasLogSoftmax a b` — with z(r, q) = a(r, q) + b(0, q) and M(r) the maximum of row r of z taken from −∞,
                           entry (r, q) is (z(r, q) − M(r)) − log (∑ over q' of exp (z(r, q') − M(r))).

  Neither a sum's order nor the cutting of the rows into blocks appears: on the extended reals + and max are
  commutative and associative, and no step divides or distributes, so no finiteness is needed anywhere.
-/
import Idealize.ShloMosaic.PureOps.Ideal
import Idealize.ShloMosaic.Lib.ValueIdx

noncomputable section

namespace Cert.Spec

open Idealize.ShloMosaic Idealize.ShloMosaic.ValueIdx

/-- The product of an n×k matrix by a k×d matrix: entry (r, q) is ∑ₖ x(r, k) · w(k, q). -/
def matProd {n k d : Nat} (x : (⟨2, ![n, k]⟩ : Shape).Idx → EReal) (w : (⟨2, ![k, d]⟩ : Shape).Idx → EReal) :
    (⟨2, ![n, d]⟩ : Shape).Idx → EReal :=
  fun i => ∑ j : Fin k, x (ix2 (i 0) j) * w (ix2 j (i 1))

/-- A one-row bias added to every row, then the rectifier: entry (r, q) is max (a(r, q) + b(0, q)) 0. -/
def biasRelu {n d : Nat} (a : (⟨2, ![n, d]⟩ : Shape).Idx → EReal) (b : (⟨2, ![1, d]⟩ : Shape).Idx → EReal) :
    (⟨2, ![n, d]⟩ : Shape).Idx → EReal :=
  fun i => max (a i + b (ix2 (0 : Fin 1) (i 1))) 0

/-- Row r of a with the one-row bias added: z(r, ·). -/
def biasedRow {n d : Nat} (a : (⟨2, ![n, d]⟩ : Shape).Idx → EReal) (b : (⟨2, ![1, d]⟩ : Shape).Idx → EReal)
    (r : Fin n) : Fin d → EReal :=
  fun q => a (ix2 r q) + b (ix2 (0 : Fin 1) q)

/-- The maximum of a row, taken from −∞ (the value of the pattern 0xFF800000). -/
def rowMax {d : Nat} (z : Fin d → EReal) : EReal :=
  (Finset.univ : Finset (Fin d)).fold max (Ideal.ofBits .f32 0xFF800000#32) z

/-- A one-row bias added to every row, then the logarithmic softmax of each row with the row's maximum taken out
    first: entry (r, q) is (z(r, q) − M(r)) − log (∑_{q'} exp (z(r, q') − M(r))). -/
def biasLogSoftmax {n d : Nat} (a : (⟨2, ![n, d]⟩ : Shape).Idx → EReal) (b : (⟨2, ![1, d]⟩ : Shape).Idx → EReal) :
    (⟨2, ![n, d]⟩ : Shape).Idx → EReal :=
  fun i =>
    (biasedRow a b (i 0) (i 1) - rowMax (biasedRow a b (i 0)))
      - Ideal.log (∑ q : Fin d, Ideal.exp (biasedRow a b (i 0) q - rowMax (biasedRow a b (i 0))))

/-- The logarithmic softmax read at coordinates (r, q). -/
theorem biasLogSoftmax_apply {n d : Nat} (a : (⟨2, ![n, d]⟩ : Shape).Idx → EReal) (b : (⟨2, ![1, d]⟩ : Shape).Idx → EReal)
    (r : Fin n) (q : Fin d) :
    biasLogSoftmax a b (ix2 r q)
      = (biasedRow a b r q - rowMax (biasedRow a b r))
          - Ideal.log (∑ q' : Fin d, Ideal.exp (biasedRow a b r q' - rowMax (biasedRow a b r))) := rfl

end Cert.Spec

end
-- ==== Proof.RefValue.lean ====
/-
  The reference program read as mathematics. The generated stages of the reference (one per host operation, each a
  function of the seven arguments) are regrouped here into the network's five steps:

    x·W1  →  mix along the edges  →  + b1, rectifier  →  ·W2  →  mix along the edges  →  + b2, logarithmic softmax.

  The two dense products are sums over the contracted index (`dot1`, `dot2`), the bias-and-rectifier is pointwise
  (`relu1`), and the closing step is, row by row, (z − M) − log ∑ exp (z − M) with M the row's maximum (`lsm`): the
  host's maximum taken from −∞ and joined once more with −∞ is the fold of max from −∞, and its sum from 0 is the plain
  sum. The mixing along the edges (a gather of source rows, a scaling by the edge's normalised weight, a scatter-add into
  the target rows) is kept as ONE function of the features it mixes (`mix128`, `mix64`) and never opened: both
  programs apply the very same host operations there. The reference computes the edges' normalised weights once per
  layer from the same edge list and weights; the two computations are the same term.
-/
import proofs.«123015_j22625887715699_1_alg».proof.Proof.RefRun
import proofs.«123015_j22625887715699_1_alg».proof.Proof.RefRead
import proofs.«123015_j22625887715699_1_alg».proof.Proof.Spec
import Idealize.ShloMosaic.PureOps.Reduce
import Idealize.ShloMosaic.PureOps.Ideal.Laws
import Idealize.ShloMosaic.Lib.ValueIdx

noncomputable section

namespace Cert.ReferenceIdeal.RefValue

open Idealize.ShloMosaic Idealize.ShloMosaic.ValueIdx Cert.ReferenceIdeal Cert.ReferenceIdeal.Read

/-! ## The mixing along the edges, as a function of the features it mixes -/

/-- The first layer's mixing of any [50000, 128] features `xw`: row n of the result is the sum, over the edges (and
    self loops) that end at n, of the edge's normalised weight times the source node's row of `xw`. -/
def mix128 (xw : (⟨S50000x128, .f32⟩ : BufTy).Contents (Elt Ideal)) (x1 : (⟨S2x1600000, .i32⟩ : BufTy).Contents (Elt Ideal)) (x2 : (⟨S1600000, .f32⟩ : BufTy).Contents (Elt Ideal)) :
    (⟨S50000x128, .f32⟩ : BufTy).Contents (Elt Ideal) :=
  Host.scatterAdd (F := Ideal) (φ := .f32) scatter_S50000x128_S1650000x1_S1650000x128_1_0_0_1 (val_main_v43 (F := Ideal)) (val_main_v44 (F := Ideal) x1)
    (mulf (F := Ideal) (φ := .f32) (val_main_v41 (F := Ideal) x1 x2)
      (Host.gather (α := Ideal .f32) gather_S50000x128_S1650000x1_S1650000x128_1_0_n_n_0_1_1128 xw (val_main_v39 (F := Ideal) x1)))

/-- The second layer's mixing of any [50000, 64] features. -/
def mix64 (xw : (⟨S50000x64, .f32⟩ : BufTy).Contents (Elt Ideal)) (x1 : (⟨S2x1600000, .i32⟩ : BufTy).Contents (Elt Ideal)) (x2 : (⟨S1600000, .f32⟩ : BufTy).Contents (Elt Ideal)) :
    (⟨S50000x64, .f32⟩ : BufTy).Contents (Elt Ideal) :=
  Host.scatterAdd (F := Ideal) (φ := .f32) scatter_S50000x64_S1650000x1_S1650000x64_1_0_0_1 (val_main_v84 (F := Ideal)) (val_main_v85 (F := Ideal) x1)
    (mulf (F := Ideal) (φ := .f32) (val_main_v82 (F := Ideal) x1 x2)
      (Host.gather (α := Ideal .f32) gather_S50000x64_S1650000x1_S1650000x64_1_0_n_n_0_1_164 xw (val_main_v80 (F := Ideal) x1)))

theorem v45_eq (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S256x128, .f32⟩ : BufTy).Contents (Elt Ideal)) :
    val_main_v45 (F := Ideal) x0 x1 x2 x3 = mix128 (val_main_v9 (F := Ideal) x0 x3) x1 x2 := rfl

theorem v86_eq (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) :
    val_main_v86 (F := Ideal) x0 x1 x2 x3 x4 x5 = mix64 (val_main_v50 (F := Ideal) x0 x1 x2 x3 x4 x5) x1 x2 := rfl

/-! ## The dense steps -/

/-- The first product: entry (r, q) is ∑ₖ x(r, k) · W1(k, q). -/
theorem dot1 (x0 : (⟨S50000x256, .f32⟩ : BufTy).Contents (Elt Ideal)) (x3 : (⟨S256x128, .f32⟩ : BufTy).Contents (Elt Ideal)) : val_main_v9 (F := Ideal) x0 x3 = Cert.Spec.matProd x0 x3 := by
  funext i
  rw [val_main_v9_apply]
  unfold Cert.Spec.matProd
  refine Finset.sum_congr rfl fun k _ => ?_
  have el : lidx_main_v9 i k = ix2 (i 0) k := funext fun a => by match a with | ⟨0, _⟩ => rfl | ⟨1, _⟩ => rfl
  have er : ridx_main_v9 i k = ix2 k (i 1) := funext fun a => by match a with | ⟨0, _⟩ => rfl | ⟨1, _⟩ => rfl
  rw [el, er]
  rfl

/-- The bias and the rectifier: entry (r, q) is max (a(r, q) + b1(q)) 0. -/
theorem relu1 (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S256x128, .f32⟩ : BufTy).Contents (Elt Ideal)) (x4 : (⟨S128, .f32⟩ : BufTy).Contents (Elt Ideal)) :
    val_main_v49 (F := Ideal) x0 x1 x2 x3 x4
      = Cert.Spec.biasRelu (val_main_v45 (F := Ideal) x0 x1 x2 x3) (val_main_v46 (F := Ideal) x4) := by
  funext i
  rw [val_main_v49_apply, val_main_v48_apply, val_main_v47_apply, val_main_call1_v0_apply, val_main_call1_cst_apply]
  unfold Cert.Spec.biasRelu
  have e : idx_main_v47 i = ix2 (0 : Fin 1) (i 1) := funext fun a => by match a with | ⟨0, _⟩ => rfl | ⟨1, _⟩ => rfl
  rw [e]
  simp only [Ideal.maximumf_def, Ideal.addf_def, Ideal.ofBits_def, Ideal.ofBits_zero_f32]
  rfl

/-- The second product: entry (r, q) is ∑ₖ h(r, k) · W2(k, q). -/
theorem dot2 (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) :
    val_main_v50 (F := Ideal) x0 x1 x2 x3 x4 x5 = Cert.Spec.matProd (val_main_v49 (F := Ideal) x0 x1 x2 x3 x4) x5 := by
  funext i
  rw [val_main_v50_apply]
  unfold Cert.Spec.matProd
  refine Finset.sum_congr rfl fun k _ => ?_
  have el : lidx_main_v50 i k = ix2 (i 0) k := funext fun a => by match a with | ⟨0, _⟩ => rfl | ⟨1, _⟩ => rfl
  have er : ridx_main_v50 i k = ix2 k (i 1) := funext fun a => by match a with | ⟨0, _⟩ => rfl | ⟨1, _⟩ => rfl
  rw [el, er]
  rfl

/-! ## The whole network -/

/-- The network as one function of the seven arguments: x·W1, mixed along the edges, + b1 and the rectifier, ·W2,
    mixed along the edges, + b2 and the logarithmic softmax of each row. -/
def net (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    (⟨S50000x64, .f32⟩ : BufTy).Contents (Elt Ideal) :=
  Cert.Spec.biasLogSoftmax
    (mix64 (Cert.Spec.matProd (Cert.Spec.biasRelu (mix128 (Cert.Spec.matProd x0 x3) x1 x2) (val_main_v46 (F := Ideal) x4)) x5) x1 x2)
    (val_main_v87 (F := Ideal) x6)

end Cert.ReferenceIdeal.RefValue

end
-- ==== Proof.HostEdges.lean ====
/-
  The graph side of the first layer, before any dense product: the edge list with one self loop per node appended
  (sources and targets), the edge weights with ones appended, every node's degree as the scatter-add of the weights
  onto the targets, its inverse square root where the degree is positive and zero elsewhere, and every edge's
  normalised weight: the factor gathered at the source, times the weight, times the factor gathered at the target.
  Both programs run these host operations, the same ones in the same order on the same arguments, so each buffer
  they leave is the same composed function of the arguments; this file reads the kernel program's three buffers
  the later steps use (sources, targets, normalised weights) as the reference's stages.
-/
import proofs.«123015_j22625887715699_1_alg».proof.Proof.Gen.KernelIdeal.Frame
import proofs.«123015_j22625887715699_1_alg».proof.Proof.RefRead
import Idealize.ShloMosaic.Lib.StableHlo.Run
import Idealize.ShloMosaic.PureOps.Ideal

noncomputable section

open Idealize.ShloMosaic Idealize.ShloMosaic.TcCoe Idealize.ShloMosaic.StableHlo Idealize.SL.Sem

namespace Cert.KernelIdeal.Val

open Cert.KernelIdeal Cert.KernelIdeal.Gen

variable (m : (ℓ : Loc nD τ sig) → Buf (Elt Ideal) ℓ) (ρ : Dev nD → PrngReg)

namespace HE

/-- Each operation leaves in its result buffer its function of its operands' buffers, and every other buffer as it
    was: read one operation at a time, for the buffers that sit under a list of operands. -/
local macro "results_by_rw" : tactic =>
  `(tactic| repeat (first
      | rw [nullary_result] | rw [unary_result] | rw [binary_result] | rw [ternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The two endpoint lists, through all three stretches at once -/

set_option maxHeartbeats 4000000 in
/-- The edge sources with the self loops appended. -/
theorem sources (c : Dev nD) : W3 m ρ c (Proc.devRef .tc main_v3) = Cert.ReferenceIdeal.Read.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  results_by_rw
  rfl

set_option maxHeartbeats 4000000 in
/-- The edge targets with the self loops appended. -/
theorem targets (c : Dev nD) : W3 m ρ c (Proc.devRef .tc main_v6) = Cert.ReferenceIdeal.Read.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  results_by_rw
  rfl

/-! ## After the first stretch: endpoints, weights, the degree's sign and its inverse square root -/

set_option maxHeartbeats 4000000 in
/-- The edge sources with the self loops appended. -/
theorem first_sources (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  results_by_rw
  rfl

set_option maxHeartbeats 4000000 in
/-- The edge targets with the self loops appended. -/
theorem first_targets (c : Dev nD) : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  results_by_rw
  rfl

set_option maxHeartbeats 4000000 in
/-- The edge weights with a one per self loop appended. -/
theorem first_weights (c : Dev nD) : W1 m ρ c (Proc.devRef .tc main_v8) = Cert.ReferenceIdeal.Read.val_main_v8 (F := Ideal) (m ((c : Thread nD τ).loc main_arg2)) := by
  show StableHlo.after hostOps0 (W0 m ρ c) (Proc.devRef .tc main_v8) = _
  after_results_simp
  results_by_rw
  rfl

set_option maxHeartbeats 4000000 in
/-- Where a node's degree (the scatter-add of the weights onto the targets) is positive. -/
theorem first_positive (c : Dev nD) : W1 m ρ c (Proc.devRef .tc main_v13) = Cert.ReferenceIdeal.Read.val_main_v14 (F := Ideal) (m ((c : Thread nD τ).loc main_arg1)) (m ((c : Thread nD τ).loc main_arg2)) := by
  show StableHlo.after hostOps0 (W0 m ρ c) (Proc.devRef .tc main_v13) = _
  after_results_simp
  results_by_rw
  rfl

set_option maxHeartbeats 4000000 in
/-- The inverse square root of every node's degree. -/
theorem first_rsqrt (c : Dev nD) : W1 m ρ c (Proc.devRef .tc main_v14) = Cert.ReferenceIdeal.Read.val_main_v15 (F := Ideal) (m ((c : Thread nD τ).loc main_arg1)) (m ((c : Thread nD τ).loc main_arg2)) := by
  show StableHlo.after hostOps0 (W0 m ρ c) (Proc.devRef .tc main_v14) = _
  after_results_simp
  results_by_rw
  rfl

set_option maxHeartbeats 4000000 in
/-- The scalar zero. -/
theorem first_zero (c : Dev nD) : W1 m ρ c (Proc.devRef .tc main_cst_2) = Cert.ReferenceIdeal.Read.val_main_cst_2 (F := Ideal) := by
  show StableHlo.after hostOps0 (W0 m ρ c) (Proc.devRef .tc main_cst_2) = _
  after_results_simp
  results_by_rw
  rfl

/-! ## The second stretch: the factor per node, 1/√degree where the degree is positive and zero elsewhere -/

/-- The second stretch, over any contents before it: its one result the later steps read. -/
theorem second_factor (F : Valuation τ sig (Elt Ideal)) :
    StableHlo.after hostOps0_1 F (Proc.devRef .tc main_v15)
      = (select (F (Proc.devRef .tc main_v13) : (⟨S50000, .i1⟩ : BufTy).Contents (Elt Ideal)) (F (Proc.devRef .tc main_v14) : (⟨S50000, .f32⟩ : BufTy).Contents (Elt Ideal))
          (broadcastInDim S50000 ![] bcast_S_S50000 (id (F (Proc.devRef .tc main_cst_2) : (⟨S_, .f32⟩ : BufTy).Contents (Elt Ideal))) : (⟨S50000, .f32⟩ : BufTy).Contents (Elt Ideal)) : (⟨S50000, .f32⟩ : BufTy).Contents (Elt Ideal)) := by
  after_results_simp
  rfl

theorem keep1_main_v3 (F : Valuation τ sig (Elt Ideal)) :
    StableHlo.after hostOps0_1 F (Proc.devRef .tc main_v3) = F (Proc.devRef .tc main_v3) := by
  after_results_simp

theorem keep1_main_v6 (F : Valuation τ sig (Elt Ideal)) :
    StableHlo.after hostOps0_1 F (Proc.devRef .tc main_v6) = F (Proc.devRef .tc main_v6) := by
  after_results_simp

theorem keep1_main_v8 (F : Valuation τ sig (Elt Ideal)) :
    StableHlo.after hostOps0_1 F (Proc.devRef .tc main_v8) = F (Proc.devRef .tc main_v8) := by
  after_results_simp

/-- The factor per node, after the second stretch. -/
theorem factor (c : Dev nD) : W2 m ρ c (Proc.devRef .tc main_v15) = Cert.ReferenceIdeal.Read.val_main_v16 (F := Ideal) (m ((c : Thread nD τ).loc main_arg1)) (m ((c : Thread nD τ).loc main_arg2)) := by
  show StableHlo.after hostOps0_1 (W1 m ρ c) (Proc.devRef .tc main_v15) = _
  rw [second_factor, first_positive, first_rsqrt, first_zero]
  rfl

/-! ## The third stretch: every edge's normalised weight -/

/-- An endpoint below zero counts from the end (i ↦ i + 50000), as a column of start indices. -/
abbrev startIdx (e : (⟨S1650000, .i32⟩ : BufTy).Contents (Elt Ideal)) : (⟨S1650000x1, .i32⟩ : BufTy).Contents (Elt Ideal) :=
  broadcastInDim S1650000x1 ![0] bcast_S1650000_S1650000x1_0
    (select (cmpi .slt e (broadcastInDim S1650000 ![] bcast_S_S1650000 (constantI S_ 32 0#32)) : (⟨S1650000, .i1⟩ : BufTy).Contents (Elt Ideal))
      (addi e (broadcastInDim S1650000 ![] bcast_S_S1650000 (constantI S_ 32 50000#32))) e : (⟨S1650000, .i32⟩ : BufTy).Contents (Elt Ideal))

/-- The factor gathered at the source, times the weight, times the factor gathered at the target. -/
abbrev normWeights (d : (⟨S50000, .f32⟩ : BufTy).Contents (Elt Ideal)) (src dst : (⟨S1650000, .i32⟩ : BufTy).Contents (Elt Ideal)) (w : (⟨S1650000, .f32⟩ : BufTy).Contents (Elt Ideal)) : (⟨S1650000, .f32⟩ : BufTy).Contents (Elt Ideal) :=
  mulf (F := Ideal) (s := S1650000) (φ := .f32)
    (mulf (F := Ideal) (s := S1650000) (φ := .f32) (Host.gather gather_S50000_S1650000x1_S1650000_n_0_n_n_0_1_1 d (startIdx src)) w)
    (Host.gather gather_S50000_S1650000x1_S1650000_n_0_n_n_0_1_1 d (startIdx dst))

set_option maxHeartbeats 4000000 in
/-- The third stretch, over any contents before it: its last result. -/
theorem third_weights (F : Valuation τ sig (Elt Ideal)) :
    StableHlo.after hostOps0_2 F (Proc.devRef .tc main_v31)
      = normWeights (F (Proc.devRef .tc main_v15)) (F (Proc.devRef .tc main_v3)) (F (Proc.devRef .tc main_v6))
          (F (Proc.devRef .tc main_v8)) := by
  after_results_simp

/-- Every edge's normalised weight. -/
theorem norm_weights (c : Dev nD) : W3 m ρ c (Proc.devRef .tc main_v31) = Cert.ReferenceIdeal.Read.val_main_v32 (F := Ideal) (m ((c : Thread nD τ).loc main_arg1)) (m ((c : Thread nD τ).loc main_arg2)) := by
  show StableHlo.after hostOps0_2 (W2 m ρ c) (Proc.devRef .tc main_v31) = _
  rw [third_weights, factor]
  show normWeights _ (StableHlo.after hostOps0_1 (W1 m ρ c) (Proc.devRef .tc main_v3))
      (StableHlo.after hostOps0_1 (W1 m ρ c) (Proc.devRef .tc main_v6))
      (StableHlo.after hostOps0_1 (W1 m ρ c) (Proc.devRef .tc main_v8)) = _
  rw [keep1_main_v3, keep1_main_v6, keep1_main_v8, first_sources, first_targets, first_weights]
  rfl

end HE

theorem W3_v31 (c : Dev nD) : W3 m ρ c (Proc.devRef .tc main_v31) = Cert.ReferenceIdeal.Read.val_main_v32 (F := Ideal) (m ((c : Thread nD τ).loc main_arg1)) (m ((c : Thread nD τ).loc main_arg2)) :=
  HE.norm_weights m ρ c

theorem W3_v3 (c : Dev nD) : W3 m ρ c (Proc.devRef .tc main_v3) = Cert.ReferenceIdeal.Read.val_main_v3 (F := Ideal) (m ((c : Thread nD τ).loc main_arg1)) :=
  HE.sources m ρ c

theorem W3_v6 (c : Dev nD) : W3 m ρ c (Proc.devRef .tc main_v6) = Cert.ReferenceIdeal.Read.val_main_v6 (F := Ideal) (m ((c : Thread nD τ).loc main_arg1)) :=
  HE.targets m ρ c

end Cert.KernelIdeal.Val

end
-- ==== Proof.HostValues.lean ====
/-
  What the host operations between the kernel launches compute, named. The program's buffers are followed from the
  launch memory through five stretches of host operations and four launches (`Gen.W0` … `Gen.W9`). Read here:

  * that no stretch and no launch disturbs a buffer it does not write: the arguments, the edges' endpoints and the
    edges' normalised weights reach every later launch and stretch as they were first computed;
  * between the launches: the mixing of the features along the edges (a gather of source rows, a scaling by the edge's
    normalised weight, a scatter-add into target rows) applied to what the launch before left — the same host operations
    as the reference's, hence the same function of the features —, and the bias vector laid out as one row, which
    is the reference's broadcast of it to one row.
-/
import proofs.«123015_j22625887715699_1_alg».proof.Proof.Gen.KernelIdeal.Frame
import proofs.«123015_j22625887715699_1_alg».proof.Proof.RefValue
import proofs.«123015_j22625887715699_1_alg».proof.Proof.HostEdges
import Idealize.ShloMosaic.Lib.StableHlo.Run
import Idealize.ShloMosaic.Lib.Pipeline.Value

set_option maxRecDepth 16384

noncomputable section

namespace Cert.KernelIdeal.Val

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- A stretch of host operations leaves a buffer none of them writes as it was. -/
local macro "host_keeps" : tactic => `(tactic| exact StableHlo.after_of_forall_not_mem _ _ (List.forall_iff_forall_mem.mp (by
    simp only [hostOps0, hostOps0_1, hostOps0_2, hostOps1, hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The arguments as the first launch finds them -/

theorem W3_of_untouched (c : Dev nD) (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = m ((c : Thread nD τ).loc b) :=
  h2.trans (h1.trans (h0.trans rfl))

theorem W3_arg0 (c : Dev nD) : W3 m ρ c (Proc.devRef .tc main_arg0) = m ((c : Thread nD τ).loc main_arg0) :=
  W3_of_untouched m ρ c main_arg0 (by host_keeps) (by host_keeps) (by host_keeps)
theorem W3_arg3 (c : Dev nD) : W3 m ρ c (Proc.devRef .tc main_arg3) = m ((c : Thread nD τ).loc main_arg3) :=
  W3_of_untouched m ρ c main_arg3 (by host_keeps) (by host_keeps) (by host_keeps)
theorem W3_arg4 (c : Dev nD) : W3 m ρ c (Proc.devRef .tc main_arg4) = m ((c : Thread nD τ).loc main_arg4) :=
  W3_of_untouched m ρ c main_arg4 (by host_keeps) (by host_keeps) (by host_keeps)
theorem W3_arg5 (c : Dev nD) : W3 m ρ c (Proc.devRef .tc main_arg5) = m ((c : Thread nD τ).loc main_arg5) :=
  W3_of_untouched m ρ c main_arg5 (by host_keeps) (by host_keeps) (by host_keeps)
theorem W3_arg6 (c : Dev nD) : W3 m ρ c (Proc.devRef .tc main_arg6) = m ((c : Thread nD τ).loc main_arg6) :=
  W3_of_untouched m ρ c main_arg6 (by host_keeps) (by host_keeps) (by host_keeps)

theorem V3_arg0 (c : Dev nD) : V3 m ρ c main_arg0 = m ((c : Thread nD τ).loc main_arg0) := W3_arg0 m ρ c
theorem V3_arg3 (c : Dev nD) : V3 m ρ c main_arg3 = m ((c : Thread nD τ).loc main_arg3) := W3_arg3 m ρ c

/-! ## Past the first launch: it writes only its own result -/

theorem W4_v31 (c : Dev nD) : W4 m ρ c (Proc.devRef .tc main_v31)
    = Cert.ReferenceIdeal.Read.val_main_v32 (F := Ideal) (m ((c : Thread nD τ).loc main_arg1)) (m ((c : Thread nD τ).loc main_arg2)) :=
  (W4_of_ne m ρ c main_v31 (by decide)).trans (W3_v31 m ρ c)
theorem W4_v3 (c : Dev nD) : W4 m ρ c (Proc.devRef .tc main_v3) = Cert.ReferenceIdeal.Read.val_main_v3 (F := Ideal) (m ((c : Thread nD τ).loc main_arg1)) :=
  (W4_of_ne m ρ c main_v3 (by decide)).trans (W3_v3 m ρ c)
theorem W4_v6 (c : Dev nD) : W4 m ρ c (Proc.devRef .tc main_v6) = Cert.ReferenceIdeal.Read.val_main_v6 (F := Ideal) (m ((c : Thread nD τ).loc main_arg1)) :=
  (W4_of_ne m ρ c main_v6 (by decide)).trans (W3_v6 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)

/-! ## The stretch between the first and the second launch -/

/-- The bias vector laid out as one row by a reshape is the reference's broadcast of it to one row: entry (0, q) of
    either is entry q of the vector. -/
theorem row128 (x4 : (⟨Cert.ReferenceIdeal.S128, .f32⟩ : BufTy).Contents (Elt Ideal)) (h : S128.ShapeCasts S1x128) :
    shapeCast S1x128 x4 h = Cert.ReferenceIdeal.Read.val_main_v46 (F := Ideal) x4 := by
  funext i
  rw [Cert.ReferenceIdeal.Read.val_main_v46_apply]
  refine shapeCast_apply x4 h i _ ?_
  rw [Shape.rowMajor_val_two, Shape.rowMajor_val_one]
  show (i 1).val = (i 0).val * 128 + (i 1).val
  have h0 : (i 0).val < 1 := (i 0).isLt
  omega

theorem row64 (x6 : (⟨Cert.ReferenceIdeal.S64, .f32⟩ : BufTy).Contents (Elt Ideal)) (h : S64.ShapeCasts S1x64) :
    shapeCast S1x64 x6 h = Cert.ReferenceIdeal.Read.val_main_v87 (F := Ideal) x6 := by
  funext i
  rw [Cert.ReferenceIdeal.Read.val_main_v87_apply]
  refine shapeCast_apply x6 h i _ ?_
  rw [Shape.rowMajor_val_two, Shape.rowMajor_val_one]
  show (i 1).val = (i 0).val * 64 + (i 1).val
  have h0 : (i 0).val < 1 := (i 0).isLt
  omega

set_option maxHeartbeats 4000000 in
/-- The second launch's first operand: the first layer's mixing of what the first launch left. -/
theorem V5_v45 (c : Dev nD) (xw : S50000x128.Idx → EReal) (hxw : W4 m ρ c (Proc.devRef .tc main_v32) = xw) :
    V5 m ρ c main_v45 = Cert.ReferenceIdeal.RefValue.mix128 xw (m ((c : Thread nD τ).loc main_arg1)) (m ((c : Thread nD τ).loc main_arg2)) := by
  show StableHlo.after hostOps1 (W4 m ρ c) (Proc.devRef .tc main_v45) = _
  after_results_simp
  rw [W4_v6, W4_v31, W4_v3, hxw]
  rfl

set_option maxHeartbeats 4000000 in
/-- The second launch's second operand: the first bias as one row. -/
theorem V5_v46 (c : Dev nD) : V5 m ρ c main_v46 = Cert.ReferenceIdeal.Read.val_main_v46 (F := Ideal) (m ((c : Thread nD τ).loc main_arg4)) := by
  show StableHlo.after hostOps1 (W4 m ρ c) (Proc.devRef .tc main_v46) = _
  after_results_simp
  rw [W4_arg4]
  exact row128 _ _

/-! ## Past the second and third launches -/

theorem W5_v31 (c : Dev nD) : W5 m ρ c (Proc.devRef .tc main_v31) = Cert.ReferenceIdeal.Read.val_main_v32 (F := Ideal) (m ((c : Thread nD τ).loc main_arg1)) (m ((c : Thread nD τ).loc main_arg2)) :=
  (by host_keeps : W5 m ρ c (Proc.devRef .tc main_v31) = W4 m ρ c (Proc.devRef .tc main_v31)).trans (W4_v31 m ρ c)
theorem W5_v3 (c : Dev nD) : W5 m ρ c (Proc.devRef .tc main_v3) = Cert.ReferenceIdeal.Read.val_main_v3 (F := Ideal) (m ((c : Thread nD τ).loc main_arg1)) :=
  (by host_keeps : W5 m ρ c (Proc.devRef .tc main_v3) = W4 m ρ c (Proc.devRef .tc main_v3)).trans (W4_v3 m ρ c)
theorem W5_v6 (c : Dev nD) : W5 m ρ c (Proc.devRef .tc main_v6) = Cert.ReferenceIdeal.Read.val_main_v6 (F := Ideal) (m ((c : Thread nD τ).loc main_arg1)) :=
  (by host_keeps : W5 m ρ c (Proc.devRef .tc main_v6) = W4 m ρ c (Proc.devRef .tc main_v6)).trans (W4_v6 m ρ c)
theorem W5_arg5 (c : Dev nD) : W5 m ρ c (Proc.devRef .tc main_arg5) = m ((c : Thread nD τ).loc main_arg5) :=
  (by host_keeps : W5 m ρ c (Proc.devRef .tc main_arg5) = W4 m ρ c (Proc.devRef .tc main_arg5)).trans (W4_arg5 m ρ c)
theorem W5_arg6 (c : Dev nD) : W5 m ρ c (Proc.devRef .tc main_arg6) = m ((c : Thread nD τ).loc main_arg6) :=
  (by host_keeps : W5 m ρ c (Proc.devRef .tc main_arg6) = W4 m ρ c (Proc.devRef .tc main_arg6)).trans (W4_arg6 m ρ c)

theorem V6_arg5 (c : Dev nD) : V6 m ρ c main_arg5 = m ((c : Thread nD τ).loc main_arg5) :=
  (W6_of_ne m ρ c main_arg5 (by decide)).trans (W5_arg5 m ρ c)

theorem W7_v31 (c : Dev nD) : W7 m ρ c (Proc.devRef .tc main_v31) = Cert.ReferenceIdeal.Read.val_main_v32 (F := Ideal) (m ((c : Thread nD τ).loc main_arg1)) (m ((c : Thread nD τ).loc main_arg2)) :=
  (W7_of_ne m ρ c main_v31 (by decide)).trans ((W6_of_ne m ρ c main_v31 (by decide)).trans (W5_v31 m ρ c))
theorem W7_v3 (c : Dev nD) : W7 m ρ c (Proc.devRef .tc main_v3) = Cert.ReferenceIdeal.Read.val_main_v3 (F := Ideal) (m ((c : Thread nD τ).loc main_arg1)) :=
  (W7_of_ne m ρ c main_v3 (by decide)).trans ((W6_of_ne m ρ c main_v3 (by decide)).trans (W5_v3 m ρ c))
theorem W7_v6 (c : Dev nD) : W7 m ρ c (Proc.devRef .tc main_v6) = Cert.ReferenceIdeal.Read.val_main_v6 (F := Ideal) (m ((c : Thread nD τ).loc main_arg1)) :=
  (W7_of_ne m ρ c main_v6 (by decide)).trans ((W6_of_ne m ρ c main_v6 (by decide)).trans (W5_v6 m ρ c))
theorem W7_arg6 (c : Dev nD) : W7 m ρ c (Proc.devRef .tc main_arg6) = m ((c : Thread nD τ).loc main_arg6) :=
  (W7_of_ne m ρ c main_arg6 (by decide)).trans ((W6_of_ne m ρ c main_arg6 (by decide)).trans (W5_arg6 m ρ c))

/-! ## The stretch before the last launch -/

set_option maxHeartbeats 4000000 in
/-- The last launch's first operand: the second layer's mixing of what the third launch left. The edges' normalised
    weights are the ones computed before the first launch; the reference computes them a second time for this layer,
    by the same operations on the same arguments. -/
theorem V8_v61 (c : Dev nD) (xw : S50000x64.Idx → EReal) (hxw : W7 m ρ c (Proc.devRef .tc main_v48) = xw) :
    V8 m ρ c main_v61 = Cert.ReferenceIdeal.RefValue.mix64 xw (m ((c : Thread nD τ).loc main_arg1)) (m ((c : Thread nD τ).loc main_arg2)) := by
  show StableHlo.after hostOps3 (W7 m ρ c) (Proc.devRef .tc main_v61) = _
  after_results_simp
  rw [W7_v6, W7_v31, W7_v3, hxw]
  rfl

set_option maxHeartbeats 4000000 in
/-- The last launch's second operand: the second bias as one row. -/
theorem V8_v62 (c : Dev nD) : V8 m ρ c main_v62 = Cert.ReferenceIdeal.Read.val_main_v87 (F := Ideal) (m ((c : Thread nD τ).loc main_arg6)) := by
  show StableHlo.after hostOps3 (W7 m ρ c) (Proc.devRef .tc main_v62) = _
  after_results_simp
  rw [W7_arg6]
  exact row64 _ _

end Cert.KernelIdeal.Val

end
-- ==== Proof.LibPlainDot.lean ====
/-
  A matrix product that contracts the left operand's columns with the right operand's rows, read at an output
  index: whatever record of dimension numbers spells it, once the record's operand indices are known coordinate
  by coordinate (row of the left operand = output row, column of the right operand = output column, the two
  contracted coordinates = the contraction index), the sum over the record's contraction index is the textbook
  sum over `k : Fin K` of `l (r, k) * r (k, c)`. Stated on the extended reals, where the sum is a sum in a
  commutative monoid and re-indexing along a bijection changes nothing.
-/
import Idealize.ShloMosaic.PureOps.Ideal.Laws
import Idealize.ShloMosaic.Lib.ValueIdx

noncomputable section

namespace Cert.PlainDot

open Idealize.ShloMosaic Idealize.ShloMosaic.ValueIdx

/-- The contraction of an `M×K` by `K×N` product at output index `j`, as a sum over `Fin K`. The hypotheses say
    what the record's two operand-index functions are, one coordinate each: they are what a concrete record
    gives by unfolding its lists of axes. -/
theorem sum_eq {M K N : ℕ} (d : DotDims ⟨2, ![M, K]⟩ ⟨2, ![K, N]⟩ ⟨2, ![M, N]⟩)
    (hr : d.contr.rank = 1) (hs : d.contr.size ⟨0, by omega⟩ = K)
    (hl0 : ∀ (j : (⟨2, ![M, N]⟩ : Shape).Idx) (q : d.contr.Idx), (d.lhsIdx j q 0).val = (j 0).val)
    (hl1 : ∀ (j : (⟨2, ![M, N]⟩ : Shape).Idx) (q : d.contr.Idx), (d.lhsIdx j q 1).val = (q ⟨0, by omega⟩).val)
    (hr0 : ∀ (j : (⟨2, ![M, N]⟩ : Shape).Idx) (q : d.contr.Idx), (d.rhsIdx j q 0).val = (q ⟨0, by omega⟩).val)
    (hr1 : ∀ (j : (⟨2, ![M, N]⟩ : Shape).Idx) (q : d.contr.Idx), (d.rhsIdx j q 1).val = (j 1).val)
    (lhs : (⟨2, ![M, K]⟩ : Shape).Idx → EReal) (rhs : (⟨2, ![K, N]⟩ : Shape).Idx → EReal)
    (j : (⟨2, ![M, N]⟩ : Shape).Idx) :
    ∑ q : d.contr.Idx, lhs (d.lhsIdx j q) * rhs (d.rhsIdx j q)
      = ∑ k : Fin K, lhs (ix2 ⟨(j 0).val, idx2_lt0 j⟩ k) * rhs (ix2 k ⟨(j 1).val, idx2_lt1 j⟩) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 ⟨(j 0).val, idx2_lt0 j⟩ k :=
    funext fun a => Fin.ext (by
      match a with
      | ⟨0, _⟩ => exact hl0 _ _
      | ⟨1, _⟩ => exact (hl1 _ _).trans hk)
  have er : d.rhsIdx j ((contrEquiv1 d K hr hs).symm k) = ix2 k ⟨(j 1).val, idx2_lt1 j⟩ :=
    funext fun a => Fin.ext (by
      match a with
      | ⟨0, _⟩ => exact (hr0 _ _).trans hk
      | ⟨1, _⟩ => exact hr1 _ _)
  rw [el, er]

end Cert.PlainDot

end
-- ==== Proof.Region0.lean ====
/-
  The first layer's dense product, block by block. The rows of the 50000×256 left matrix are cut into 25 blocks
  of 2000 rows; grid point t multiplies block t by the whole 256×128 right matrix and writes block t of the output.
  Entry (r, q) of a block's product is the sum over k of x(r, k) · w(k, q) (on the extended reals a change of
  format is the identity and the accumulator starts at zero), row r of block t is row 2000·t + r of the array, and
  row r of the array lies in block r / 2000: so the output array ends as the matrix product of the two arrays.
-/
import proofs.«123015_j22625887715699_1_alg».proof.Proof.Gen.KernelIdeal.Frame
import proofs.«123015_j22625887715699_1_alg».proof.Proof.Spec
import proofs.«123015_j22625887715699_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

namespace R0

/-- The offsets of a whole-block access, as the constant function zero. -/
theorem hz : (![0, 0] : Fin 2 → Nat) = fun _ => 0 := funext fun a => by fin_cases a <;> rfl

/-! ## The product's dimension numbers, coordinate by coordinate -/

/-- The left operand's row is the output's row. -/
theorem lhs_row (j : S2000x128.Idx) (q : dot_S2000x256_S256x128_S2000x128_1_0_0_1_n_n.contr.Idx) :
    (dot_S2000x256_S256x128_S2000x128_1_0_0_1_n_n.lhsIdx j q 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl

/-- The left operand's column is the contraction index. -/
theorem lhs_col (j : S2000x128.Idx) (q : dot_S2000x256_S256x128_S2000x128_1_0_0_1_n_n.contr.Idx) :
    (dot_S2000x256_S256x128_S2000x128_1_0_0_1_n_n.lhsIdx j q 1).val = (q ⟨0, by decide⟩).val :=
  dot_S2000x256_S256x128_S2000x128_1_0_0_1_n_n.lhsIdx_val_of_single rfl j q

/-- The right operand's row is the contraction index. -/
theorem rhs_row (j : S2000x128.Idx) (q : dot_S2000x256_S256x128_S2000x128_1_0_0_1_n_n.contr.Idx) :
    (dot_S2000x256_S256x128_S2000x128_1_0_0_1_n_n.rhsIdx j q 0).val = (q ⟨0, by decide⟩).val :=
  dot_S2000x256_S256x128_S2000x128_1_0_0_1_n_n.rhsIdx_val_of_single rfl j q

/-- The right operand's column is the output's column. -/
theorem rhs_col (j : S2000x128.Idx) (q : dot_S2000x256_S256x128_S2000x128_1_0_0_1_n_n.contr.Idx) :
    (dot_S2000x256_S256x128_S2000x128_1_0_0_1_n_n.rhsIdx j q 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! ## A block's product at an index -/

/-- One block's product at (r, q): the sum over k of x(r, k) · w(k, q). On the extended reals the change of
    format is the identity and the accumulator starts at zero. -/
theorem pay_apply (x0 : Vec Ideal S2000x256 .f32) (x1 : Vec Ideal S256x128 .f32) (j : S2000x128.Idx) :
    k0_pay1 (F := Ideal) x0 x1 j
      = ∑ k : Fin 256, x0 (ix2 ⟨(j 0).val, idx2_lt0 j⟩ k) * x1 (ix2 k ⟨(j 1).val, idx2_lt1 j⟩) := by
  unfold k0_pay1
  simp only [Ideal.matmul_constant_zero_apply]
  show ∑ q : dot_S2000x256_S256x128_S2000x128_1_0_0_1_n_n.contr.Idx, x0 (dot_S2000x256_S256x128_S2000x128_1_0_0_1_n_n.lhsIdx j q) * x1 (dot_S2000x256_S256x128_S2000x128_1_0_0_1_n_n.rhsIdx j q) = _
  exact Cert.PlainDot.sum_eq (M := 2000) (K := 256) (N := 128) dot_S2000x256_S256x128_S2000x128_1_0_0_1_n_n rfl rfl
    lhs_row lhs_col rhs_row rhs_col x0 x1 j

/-! ## Where the blocks sit -/

/-- The index maps over the grid: the left operand's block and the output's block of point t start at row
    t · 2000, column 0; the right operand is one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 2000·t … 2000·t + 1999 of its array. -/
theorem lhs_blk_apply (c : Dev nD) (t : Fin cfg0.N) (x : S2000x256.Idx) (i : S50000x256.Idx)
    (h0 : (i 0).val = t.val * 2000 + (x 0).val) (h1 : (i 1).val = (x 1).val) :
    (iblk0 V c 0 t : Vec Ideal S2000x256 .f32) x = (V c main_arg0 : S50000x256.Idx → EReal) i := by
  obtain ⟨e0, e1, -⟩ := idx_facts t
  show V c main_arg0 (((cfg0.win 0).blk t).view.emb x) = V c main_arg0 i
  congr 1
  funext a
  apply Fin.ext
  match a with
  | ⟨0, _⟩ => show win0_0.index t (0 : Fin 2) * 2000 + 1 * (x 0).val = (i 0).val; rw [e0, h0]; omega
  | ⟨1, _⟩ => show win0_0.index t (1 : Fin 2) * 256 + 1 * (x 1).val = (i 1).val; rw [e1, h1]; omega

/-- The right operand's block at every point is its whole array. -/
theorem rhs_blk_apply (c : Dev nD) (t : Fin cfg0.N) (x i : S256x128.Idx)
    (h0 : (i 0).val = (x 0).val) (h1 : (i 1).val = (x 1).val) :
    (iblk0 V c 1 t : Vec Ideal S256x128 .f32) x = (V c main_arg3 : S256x128.Idx → EReal) i := by
  obtain ⟨-, -, e0, e1, -⟩ := idx_facts t
  show V c main_arg3 (((cfg0.win 1).blk t).view.emb x) = V c main_arg3 i
  congr 1
  funext a
  apply Fin.ext
  match a with
  | ⟨0, _⟩ => show win0_1.index t (0 : Fin 2) * 256 + 1 * (x 0).val = (i 0).val; rw [e0, h0]; omega
  | ⟨1, _⟩ => show win0_1.index t (1 : Fin 2) * 128 + 1 * (x 1).val = (i 1).val; rw [e1, h1]; omega

/-! ## What a point writes back -/

/-- Point t writes back block t of the matrix product of the two arrays as the region finds them. -/
theorem flushed_eq (c : Dev nD) (t : Fin cfg0.N) :
    (dat0 (F := Ideal) V c).flushed 2 t
      = ((cfg0.win 2).blk t).view.read (Elt Ideal)
          (Cert.Spec.matProd (V c main_arg0 : S50000x256.Idx → EReal) (V c main_arg3 : S256x128.Idx → EReal)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨-, -, -, -, e0, e1⟩ := idx_facts t
  funext j
  show k0_pay1 (iblk0 V c 0 t) (iblk0 V c 1 t) j
      = Cert.Spec.matProd (V c main_arg0 : S50000x256.Idx → EReal) (V c main_arg3 : S256x128.Idx → EReal)
          (((cfg0.win 2).blk t).view.emb j)
  have hr : ((((cfg0.win 2).blk t).view.emb j) 0).val = t.val * 2000 + (j 0).val := by
    show win0_2.index t (0 : Fin 2) * 2000 + 1 * (j 0).val = _
    rw [e0]; omega
  have hq : ((((cfg0.win 2).blk t).view.emb j) 1).val = (j 1).val := by
    show win0_2.index t (1 : Fin 2) * 128 + 1 * (j 1).val = _
    rw [e1]; omega
  refine (pay_apply (iblk0 V c 0 t) (iblk0 V c 1 t) j).trans ?_
  unfold Cert.Spec.matProd
  refine Finset.sum_congr rfl fun k _ => ?_
  exact congrArg₂ (· * ·)
    (lhs_blk_apply V c t _ _ hr rfl)
    (rhs_blk_apply V c t _ _ rfl hq)

/-! ## The blocks cover the array -/

/-- An index of the output array is in point t's block iff each coordinate is in the block's range. -/
theorem mem_blk (t : Fin cfg0.N) (i : S50000x128.Idx) :
    i ∈ ((cfg0.win 2).blk t).view.set
      ↔ ∀ a : Fin 2, win0_2.index t a * S2000x128.size a ≤ (i a).val
          ∧ (i a).val < win0_2.index t a * S2000x128.size a + S2000x128.size a := by
  show i ∈ ((View.whole main_v32).slice (win0_2.rect t)).set ↔ _
  rw [View.set_slice_whole, Rect.mem_set_unit]
  exact Iff.rfl

/-- Row r of the output array is written back by point r / 2000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, e0, e1⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e0, ht]; omega
  | ⟨1, _⟩ =>
    show win0_2.index t (1 : Fin 2) * 128 ≤ (i 1).val ∧ (i 1).val < win0_2.index t (1 : Fin 2) * 128 + 128
    rw [e1]; omega

end R0

/-- After the region the output array is the matrix product of the two input arrays as the region finds them. -/
theorem final0 (c : Dev nD) :
    (dat0 (F := Ideal) V c).arrAt 2 cfg0.N
      = Cert.Spec.matProd (V c main_arg0 : S50000x256.Idx → EReal) (V c main_arg3 : S256x128.Idx → EReal) :=
  (dat0 (F := Ideal) V c).arrAt_eq_of_cover 2
    (Cert.Spec.matProd (V c main_arg0 : S50000x256.Idx → EReal) (V c main_arg3 : S256x128.Idx → EReal))
    (fun t _ => R0.flushed_eq V c t) (fun i => R0.cover i)

end Cert.KernelIdeal.Val

end
-- ==== Proof.Region1.lean ====
/-
  The first layer's closing step, read as one function of whole arrays.

  The grid cuts the 50000 rows into ten blocks of 5000; at each block the body adds the one-row bias to every row and
  takes the maximum with zero. Both steps act entry by entry, so the block written at a point is the restriction of
  max (a(r, q) + b(0, q)) 0 to that block's rows, and the ten blocks cover every row: the output array is that function.
-/
import proofs.«123015_j22625887715699_1_alg».proof.Proof.Gen.KernelIdeal.Frame
import proofs.«123015_j22625887715699_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

namespace R1

/-- The origin of a block, as the constant function. -/
theorem origin : (![0, 0] : Fin 2 → Nat) = fun _ => 0 := funext fun a => by fin_cases a <;> rfl

/-- The body's value at row p, column q of a block: the block's entry plus the bias's entry of that column, cut
    below at zero (the zero word is the real 0). -/
theorem pay_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  show max (x0 (ix2 p q) + x1 (ix2 (0 : Fin 1) q)) (Ideal.ofBits .f32 0x00000000#32) = _
  rw [Ideal.ofBits_zero_f32]

/-- So on a block the body is the bias-and-rectifier of the block and the bias row. -/
theorem pay_eq (x0 : Vec Ideal S5000x128 .f32) (x1 : Vec Ideal S1x128 .f32) :
    k1_pay1 (F := Ideal) x0 x1 = Cert.Spec.biasRelu (n := 5000) (d := 128) x0 x1 := by
  funext j
  obtain ⟨p, q, rfl⟩ : ∃ (p : Fin 5000) (q : Fin 128), j = ix2 p q := ⟨j 0, j 1, eq_ix2 j⟩
  exact pay_apply x0 x1 p q

/-- The index maps over the ten points: the input block and the output block of point t both start at block row t,
    column 0; the bias is always its one whole block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The bias-and-rectifier of a block at (p, q) is that of the whole arrays at the index I the block's (p, q) sits at,
    once the block's entry there is the array's at I, I's column is q, and the block of the bias is the bias. -/
theorem block_eq (A : S50000x128.Idx → EReal) (B : S1x128.Idx → EReal) (x0 : S5000x128.Idx → EReal) (x1 : S1x128.Idx → EReal)
    (p : Fin 5000) (q : Fin 128) (I : S50000x128.Idx) (hI : (I 1).val = q.val)
    (h0 : x0 (ix2 p q) = A I) (h1 : x1 (ix2 (0 : Fin 1) q) = B (ix2 (0 : Fin 1) q)) :
    Cert.Spec.biasRelu (n := 5000) (d := 128) x0 x1 (ix2 p q) = Cert.Spec.biasRelu (n := 50000) (d := 128) A B I := by
  have hq : I 1 = q := Fin.ext hI
  show max (x0 (ix2 p q) + x1 (ix2 (0 : Fin 1) q)) 0 = max (A I + B (ix2 (0 : Fin 1) (I 1))) 0
  rw [h0, h1, hq]

/-- What point t writes back is block t of the bias-and-rectifier of the whole arrays. -/
theorem flushed_eq (c : Dev nD) (t : Fin cfg1.N) :
    (dat1 (F := Ideal) V c).flushed 2 t = ((cfg1.win 2).blk t).view.read (Elt Ideal)
      (Cert.Spec.biasRelu (V c main_v45 : S50000x128.Idx → EReal) (V c main_v46 : S1x128.Idx → EReal)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  rw [pay_eq]
  obtain ⟨e0, e1, e2, e3, e4, e5⟩ := idx_facts t
  funext j
  obtain ⟨p, q, rfl⟩ : ∃ (p : Fin 5000) (q : Fin 128), j = ix2 p q := ⟨j 0, j 1, eq_ix2 j⟩
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  refine block_eq (V c main_v45) (V c main_v46) (iblk1 V c 0 t) (iblk1 V c 1 t) p q
    (((cfg1.win 2).blk t).view.emb (ix2 p q)) ?_ ?_ ?_
  · show win1_2.index t (1 : Fin 2) * 128 + 1 * q.val = q.val
    omega
  · show (V c main_v45 : S50000x128.Idx → EReal) (((cfg1.win 0).blk t).view.emb (ix2 p q))
      = (V c main_v45 : S50000x128.Idx → EReal) (((cfg1.win 2).blk t).view.emb (ix2 p q))
    rw [h0]
  · show (V c main_v46 : S1x128.Idx → EReal) (((cfg1.win 1).blk t).view.emb (ix2 (0 : Fin 1) q))
      = (V c main_v46 : S1x128.Idx → EReal) (ix2 (0 : Fin 1) q)
    rw [h1]

/-- An index of the output array is in point t's block iff each coordinate is in the block's range on its axis. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- Every index is in some point's block: row r is in the block of point r / 5000. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  have ht : (i 0).val / 5000 < cfg1.N := by rw [hN]; omega
  obtain ⟨e0, e1, e2, e3, e4, e5⟩ := idx_facts ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    omega

end R1

/-- The output array after the region: entry (r, q) is max (a(r, q) + b(0, q)) 0 of the arrays the region finds. -/
theorem final1 (c : Dev nD) : (dat1 (F := Ideal) V c).arrAt 2 cfg1.N
    = Cert.Spec.biasRelu (V c main_v45 : S50000x128.Idx → EReal) (V c main_v46 : S1x128.Idx → EReal) :=
  (dat1 (F := Ideal) V c).arrAt_eq_of_cover 2 _ (fun t _ => R1.flushed_eq V c t) R1.cover

end Cert.KernelIdeal.Val

end
-- ==== Proof.Region2.lean ====
/-
  The second layer's dense product, block by block. The rows of the 50000×128 left matrix are cut into 25 blocks
  of 2000 rows; grid point t multiplies block t by the whole 128×64 right matrix and writes block t of the output.
  Entry (r, q) of a block's product is the sum over k of x(r, k) · w(k, q) (on the extended reals a change of
  format is the identity and the accumulator starts at zero), row r of block t is row 2000·t + r of the array, and
  row r of the array lies in block r / 2000: so the output array ends as the matrix product of the two arrays.
-/
import proofs.«123015_j22625887715699_1_alg».proof.Proof.Gen.KernelIdeal.Frame
import proofs.«123015_j22625887715699_1_alg».proof.Proof.Spec
import proofs.«123015_j22625887715699_1_alg».proof.Proof.LibPlainDot
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

namespace R2

/-- The offsets of a whole-block access, as the constant function zero. -/
theorem hz : (![0, 0] : Fin 2 → Nat) = fun _ => 0 := funext fun a => by fin_cases a <;> rfl

/-! ## The product's dimension numbers, coordinate by coordinate -/

/-- The left operand's row is the output's row. -/
theorem lhs_row (j : S2000x64.Idx) (q : dot_S2000x128_S128x64_S2000x64_1_0_0_1_n_n.contr.Idx) :
    (dot_S2000x128_S128x64_S2000x64_1_0_0_1_n_n.lhsIdx j q 0).val = (j 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl

/-- The left operand's column is the contraction index. -/
theorem lhs_col (j : S2000x64.Idx) (q : dot_S2000x128_S128x64_S2000x64_1_0_0_1_n_n.contr.Idx) :
    (dot_S2000x128_S128x64_S2000x64_1_0_0_1_n_n.lhsIdx j q 1).val = (q ⟨0, by decide⟩).val :=
  dot_S2000x128_S128x64_S2000x64_1_0_0_1_n_n.lhsIdx_val_of_single rfl j q

/-- The right operand's row is the contraction index. -/
theorem rhs_row (j : S2000x64.Idx) (q : dot_S2000x128_S128x64_S2000x64_1_0_0_1_n_n.contr.Idx) :
    (dot_S2000x128_S128x64_S2000x64_1_0_0_1_n_n.rhsIdx j q 0).val = (q ⟨0, by decide⟩).val :=
  dot_S2000x128_S128x64_S2000x64_1_0_0_1_n_n.rhsIdx_val_of_single rfl j q

/-- The right operand's column is the output's column. -/
theorem rhs_col (j : S2000x64.Idx) (q : dot_S2000x128_S128x64_S2000x64_1_0_0_1_n_n.contr.Idx) :
    (dot_S2000x128_S128x64_S2000x64_1_0_0_1_n_n.rhsIdx j q 1).val = (j 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-! ## A block's product at an index -/

/-- One block's product at (r, q): the sum over k of x(r, k) · w(k, q). On the extended reals the change of
    format is the identity and the accumulator starts at zero. -/
theorem pay_apply (x0 : Vec Ideal S2000x128 .f32) (x1 : Vec Ideal S128x64 .f32) (j : S2000x64.Idx) :
    k2_pay1 (F := Ideal) x0 x1 j
      = ∑ k : Fin 128, x0 (ix2 ⟨(j 0).val, idx2_lt0 j⟩ k) * x1 (ix2 k ⟨(j 1).val, idx2_lt1 j⟩) := by
  unfold k2_pay1
  simp only [shapeCast_self]
  simp only [Ideal.matmul_constant_zero_apply]
  show ∑ q : dot_S2000x128_S128x64_S2000x64_1_0_0_1_n_n.contr.Idx, x0 (dot_S2000x128_S128x64_S2000x64_1_0_0_1_n_n.lhsIdx j q) * x1 (dot_S2000x128_S128x64_S2000x64_1_0_0_1_n_n.rhsIdx j q) = _
  exact Cert.PlainDot.sum_eq (M := 2000) (K := 128) (N := 64) dot_S2000x128_S128x64_S2000x64_1_0_0_1_n_n rfl rfl
    lhs_row lhs_col rhs_row rhs_col x0 x1 j

/-! ## Where the blocks sit -/

/-- The index maps over the grid: the left operand's block and the output's block of point t start at row
    t · 2000, column 0; the right operand is one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left operand's block at point t is rows 2000·t … 2000·t + 1999 of its array. -/
theorem lhs_blk_apply (c : Dev nD) (t : Fin cfg2.N) (x : S2000x128.Idx) (i : S50000x128.Idx)
    (h0 : (i 0).val = t.val * 2000 + (x 0).val) (h1 : (i 1).val = (x 1).val) :
    (iblk2 V c 0 t : Vec Ideal S2000x128 .f32) x = (V c main_v47 : S50000x128.Idx → EReal) i := by
  obtain ⟨e0, e1, -⟩ := idx_facts t
  show V c main_v47 (((cfg2.win 0).blk t).view.emb x) = V c main_v47 i
  congr 1
  funext a
  apply Fin.ext
  match a with
  | ⟨0, _⟩ => show win2_0.index t (0 : Fin 2) * 2000 + 1 * (x 0).val = (i 0).val; rw [e0, h0]; omega
  | ⟨1, _⟩ => show win2_0.index t (1 : Fin 2) * 128 + 1 * (x 1).val = (i 1).val; rw [e1, h1]; omega

/-- The right operand's block at every point is its whole array. -/
theorem rhs_blk_apply (c : Dev nD) (t : Fin cfg2.N) (x i : S128x64.Idx)
    (h0 : (i 0).val = (x 0).val) (h1 : (i 1).val = (x 1).val) :
    (iblk2 V c 1 t : Vec Ideal S128x64 .f32) x = (V c main_arg5 : S128x64.Idx → EReal) i := by
  obtain ⟨-, -, e0, e1, -⟩ := idx_facts t
  show V c main_arg5 (((cfg2.win 1).blk t).view.emb x) = V c main_arg5 i
  congr 1
  funext a
  apply Fin.ext
  match a with
  | ⟨0, _⟩ => show win2_1.index t (0 : Fin 2) * 128 + 1 * (x 0).val = (i 0).val; rw [e0, h0]; omega
  | ⟨1, _⟩ => show win2_1.index t (1 : Fin 2) * 64 + 1 * (x 1).val = (i 1).val; rw [e1, h1]; omega

/-! ## What a point writes back -/

/-- Point t writes back block t of the matrix product of the two arrays as the region finds them. -/
theorem flushed_eq (c : Dev nD) (t : Fin cfg2.N) :
    (dat2 (F := Ideal) V c).flushed 2 t
      = ((cfg2.win 2).blk t).view.read (Elt Ideal)
          (Cert.Spec.matProd (V c main_v47 : S50000x128.Idx → EReal) (V c main_arg5 : S128x64.Idx → EReal)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x64) hz]
  obtain ⟨-, -, -, -, e0, e1⟩ := idx_facts t
  funext j
  show k2_pay1 (iblk2 V c 0 t) (iblk2 V c 1 t) j
      = Cert.Spec.matProd (V c main_v47 : S50000x128.Idx → EReal) (V c main_arg5 : S128x64.Idx → EReal)
          (((cfg2.win 2).blk t).view.emb j)
  have hr : ((((cfg2.win 2).blk t).view.emb j) 0).val = t.val * 2000 + (j 0).val := by
    show win2_2.index t (0 : Fin 2) * 2000 + 1 * (j 0).val = _
    rw [e0]; omega
  have hq : ((((cfg2.win 2).blk t).view.emb j) 1).val = (j 1).val := by
    show win2_2.index t (1 : Fin 2) * 64 + 1 * (j 1).val = _
    rw [e1]; omega
  refine (pay_apply (iblk2 V c 0 t) (iblk2 V c 1 t) j).trans ?_
  unfold Cert.Spec.matProd
  refine Finset.sum_congr rfl fun k _ => ?_
  exact congrArg₂ (· * ·)
    (lhs_blk_apply V c t _ _ hr rfl)
    (rhs_blk_apply V c t _ _ rfl hq)

/-! ## The blocks cover the array -/

/-- An index of the output array is in point t's block iff each coordinate is in the block's range. -/
theorem mem_blk (t : Fin cfg2.N) (i : S50000x64.Idx) :
    i ∈ ((cfg2.win 2).blk t).view.set
      ↔ ∀ a : Fin 2, win2_2.index t a * S2000x64.size a ≤ (i a).val
          ∧ (i a).val < win2_2.index t a * S2000x64.size a + S2000x64.size a := by
  show i ∈ ((View.whole main_v48).slice (win2_2.rect t)).set ↔ _
  rw [View.set_slice_whole, Rect.mem_set_unit]
  exact Iff.rfl

/-- Row r of the output array is written back by point r / 2000. -/
theorem cover (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, e0, e1⟩ := idx_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    rw [e0, ht]; omega
  | ⟨1, _⟩ =>
    show win2_2.index t (1 : Fin 2) * 64 ≤ (i 1).val ∧ (i 1).val < win2_2.index t (1 : Fin 2) * 64 + 64
    rw [e1]; omega

end R2

/-- After the region the output array is the matrix product of the two input arrays as the region finds them. -/
theorem final2 (c : Dev nD) :
    (dat2 (F := Ideal) V c).arrAt 2 cfg2.N
      = Cert.Spec.matProd (V c main_v47 : S50000x128.Idx → EReal) (V c main_arg5 : S128x64.Idx → EReal) :=
  (dat2 (F := Ideal) V c).arrAt_eq_of_cover 2
    (Cert.Spec.matProd (V c main_v47 : S50000x128.Idx → EReal) (V c main_arg5 : S128x64.Idx → EReal))
    (fun t _ => R2.flushed_eq V c t) (fun i => R2.cover i)

end Cert.KernelIdeal.Val

end
-- ==== Proof.LibColumnBroadcast.lean ====
/-
  The keepdims forms of a per-row scalar, read at an index: a column broadcast over the lanes, and a vector
  reshaped to a column.
-/
import Idealize.ShloMosaic.Lib.Pipeline.Value
import Idealize.ShloMosaic.Lib.ValueIdx

namespace Cert.Lib.ColumnBroadcast

open Idealize.ShloMosaic Idealize.ShloMosaic.ValueIdx

variable {α : Type}

/-- An `[a, 1]` array broadcast to `[a, b]` reads, at `(p, c)`, the operand's one column at row `p`
    (the keepdims form of a per-row scalar spread over the row). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`
    (the keepdims form of a per-row reduction's result). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Cert.Lib.ColumnBroadcast
-- ==== Proof.Region3.lean ====
/-
  The second layer's closing step, read as one function of whole arrays.

  The grid cuts the 50000 rows into ten blocks of 5000; at each block the body adds the one-row bias to every row,
  takes each row's maximum M(r) from −∞, and returns (z(r, q) − M(r)) − log (∑ over q' of exp (z(r, q') − M(r))).
  Every step reads one row of the block at a time, so the block written at a point is the restriction of that
  function of the whole arrays to the block's rows, and the ten blocks cover every row.
-/
import proofs.«123015_j22625887715699_1_alg».proof.Proof.Gen.KernelIdeal.Frame
import proofs.«123015_j22625887715699_1_alg».proof.Proof.Spec
import proofs.«123015_j22625887715699_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx Idealize.SL.Sem
open Idealize.ShloMosaic.Pipeline (Dat)

namespace Cert.KernelIdeal.Val

open Cert.KernelIdeal Cert.KernelIdeal.Gen

variable (V : (c : Dev nD) → (b : Ref sig .tc) → Buf (Elt Ideal) ((c : Thread nD τ).loc b))

namespace R3

open Cert.Lib.ColumnBroadcast

/-- The origin of a block, as the constant function. -/
theorem origin : (![0, 0] : Fin 2 → Nat) = fun _ => 0 := funext fun a => by fin_cases a <;> rfl

/-- A row index r with lane k put back on the reduced axis is (r, k). -/
theorem lift_ix2 (h : S5000x64.Reduces [1] S5000) (r : Fin 5000) (k : Fin (S5000x64.size 1)) :
    h.lift (ix1 r) k = ix2 r (⟨k.val, k.isLt⟩ : Fin 64) := by
  funext c; apply Fin.ext
  fin_cases c <;> rfl

/-! ## The body in four parts -/

/-- z: the block with the bias row added to every row. -/
def biased (x0 : Vec Ideal S5000x64 .f32) (x1 : Vec Ideal S1x64 .f32) : FVec Ideal S5000x64 .f32 :=
  addf (shapeCast S5000x64 x0 shapeCasts_S5000x64_S5000x64)
    (broadcastTo S5000x64 (shapeCast S1x64 x1 shapeCasts_S1x64_S1x64) broadcasts_S1x64_S5000x64)

/-- M: each row's maximum of z, taken from −∞. -/
def rowMaxes (x0 : Vec Ideal S5000x64 .f32) (x1 : Vec Ideal S1x64 .f32) : FVec Ideal S5000 .f32 :=
  multiReduction .maximumf [1] S5000 (biased x0 x1) 0xFF800000#32 reduces_S5000x64_S5000 (.inl rfl) rfl

/-- z − M, the row's maximum spread back over the row. -/
def centred (x0 : Vec Ideal S5000x64 .f32) (x1 : Vec Ideal S1x64 .f32) : FVec Ideal S5000x64 .f32 :=
  subf (biased x0 x1)
    (broadcastTo S5000x64 (shapeCast S5000x1 (rowMaxes x0 x1) shapeCasts_S5000_S5000x1) broadcasts_S5000x1_S5000x64)

/-- Each row's sum of exp (z − M). -/
def expSums (x0 : Vec Ideal S5000x64 .f32) (x1 : Vec Ideal S1x64 .f32) : FVec Ideal S5000 .f32 :=
  multiReduction .add [1] S5000 (exp (centred x0 x1)) 0x00000000#32 reduces_S5000x64_S5000 (.inl rfl) rfl

/-- The body is (z − M) minus the logarithm of the row's sum, spread back over the row. -/
theorem pay_parts (x0 : Vec Ideal S5000x64 .f32) (x1 : Vec Ideal S1x64 .f32) :
    k3_pay1 (F := Ideal) x0 x1 = subf (centred x0 x1)
      (broadcastTo S5000x64 (log (shapeCast S5000x1 (expSums x0 x1) shapeCasts_S5000_S5000x1)) broadcasts_S5000x1_S5000x64) :=
  rfl

/-! ## Each part at an index -/

/-- z at (r, k) is the block's entry plus the bias's entry of column k. -/
theorem biased_apply (x0 : Vec Ideal S5000x64 .f32) (x1 : Vec Ideal S1x64 .f32) (r : Fin 5000) (k : Fin 64) :
    biased x0 x1 (ix2 r k) = Cert.Spec.biasedRow (n := 5000) (d := 64) x0 x1 r k := by
  show biased x0 x1 (ix2 r k) = x0 (ix2 r k) + x1 (ix2 (0 : Fin 1) k)
  unfold biased
  rw [addf_apply, shapeCast_self, shapeCast_self, broadcastTo_1b_ab_apply]

/-- M at r is the maximum, from −∞, of row r of z. -/
theorem rowMaxes_apply (x0 : Vec Ideal S5000x64 .f32) (x1 : Vec Ideal S1x64 .f32) (r : Fin 5000) :
    rowMaxes x0 x1 (ix1 r) = Cert.Spec.rowMax (Cert.Spec.biasedRow (n := 5000) (d := 64) x0 x1 r) := by
  unfold rowMaxes
  refine (Ideal.multiReduction_maximumf_single (biased x0 x1) 0xFF800000#32 reduces_S5000x64_S5000 (.inl rfl) rfl (ix1 r)).trans ?_
  have hf : (biased x0 x1 ∘ reduces_S5000x64_S5000.lift (ix1 r))
      = fun k : Fin 64 => Cert.Spec.biasedRow (n := 5000) (d := 64) x0 x1 r k :=
    funext fun k => (congrArg (biased x0 x1) (lift_ix2 reduces_S5000x64_S5000 r k)).trans
      (biased_apply x0 x1 r ⟨k.val, k.isLt⟩)
  exact congrArg (fun f : Fin 64 → EReal => (Finset.univ : Finset (Fin 64)).fold max (Ideal.ofBits .f32 0xFF800000#32) f) hf

/-- z − M at (r, k). -/
theorem centred_apply (x0 : Vec Ideal S5000x64 .f32) (x1 : Vec Ideal S1x64 .f32) (r : Fin 5000) (k : Fin 64) :
    centred x0 x1 (ix2 r k) = Cert.Spec.biasedRow (n := 5000) (d := 64) x0 x1 r k
      - Cert.Spec.rowMax (Cert.Spec.biasedRow (n := 5000) (d := 64) x0 x1 r) := by
  unfold centred
  rw [subf_apply, broadcastTo_a1_ab_apply, shapeCast_a_a1_apply, biased_apply, rowMaxes_apply]

/-- The row's sum at r: the sum over the 64 lanes of exp (z − M). -/
theorem expSums_apply (x0 : Vec Ideal S5000x64 .f32) (x1 : Vec Ideal S1x64 .f32) (r : Fin 5000) :
    expSums x0 x1 (ix1 r) = ∑ k : Fin 64, Ideal.exp (Cert.Spec.biasedRow (n := 5000) (d := 64) x0 x1 r k
      - Cert.Spec.rowMax (Cert.Spec.biasedRow (n := 5000) (d := 64) x0 x1 r)) := by
  unfold expSums
  refine (Ideal.multiReduction_add_single (exp (centred x0 x1)) 0x00000000#32 reduces_S5000x64_S5000 (.inl rfl) rfl (ix1 r)).trans ?_
  refine Finset.sum_congr rfl fun k _ => ?_
  exact (congrArg (fun i => Ideal.exp (centred x0 x1 i)) (lift_ix2 reduces_S5000x64_S5000 r k)).trans
    (congrArg Ideal.exp (centred_apply x0 x1 r ⟨k.val, k.isLt⟩))

/-- The body's value at row r, column q of a block is the logarithmic softmax, with bias, of the block's row r. -/
theorem pay_apply (x0 : Vec Ideal S5000x64 .f32) (x1 : Vec Ideal S1x64 .f32) (r : Fin 5000) (q : Fin 64) :
    k3_pay1 (F := Ideal) x0 x1 (ix2 r q) = Cert.Spec.biasLogSoftmax (n := 5000) (d := 64) x0 x1 (ix2 r q) := by
  show k3_pay1 (F := Ideal) x0 x1 (ix2 r q)
    = (Cert.Spec.biasedRow (n := 5000) (d := 64) x0 x1 r q - Cert.Spec.rowMax (Cert.Spec.biasedRow (n := 5000) (d := 64) x0 x1 r))
      - Ideal.log (∑ k : Fin 64, Ideal.exp (Cert.Spec.biasedRow (n := 5000) (d := 64) x0 x1 r k
          - Cert.Spec.rowMax (Cert.Spec.biasedRow (n := 5000) (d := 64) x0 x1 r)))
  rw [pay_parts, subf_apply, broadcastTo_a1_ab_apply]
  show centred x0 x1 (ix2 r q)
    - Ideal.log (shapeCast S5000x1 (expSums x0 x1) shapeCasts_S5000_S5000x1 (ix2 r (0 : Fin 1))) = _
  rw [shapeCast_a_a1_apply, expSums_apply, centred_apply]

/-- So on a block the body is the logarithmic softmax, with bias, of the block and the bias row. -/
theorem pay_eq (x0 : Vec Ideal S5000x64 .f32) (x1 : Vec Ideal S1x64 .f32) :
    k3_pay1 (F := Ideal) x0 x1 = Cert.Spec.biasLogSoftmax (n := 5000) (d := 64) x0 x1 := by
  funext j
  obtain ⟨r, q, rfl⟩ : ∃ (r : Fin 5000) (q : Fin 64), j = ix2 r q := ⟨j 0, j 1, eq_ix2 j⟩
  exact pay_apply x0 x1 r q

/-! ## From blocks to the array -/

/-- The index maps over the ten points: the input block and the output block of point t both start at block row t,
    column 0; the bias is always its one whole block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The logarithmic softmax of a block at (r, q) is that of the whole arrays at the index I the block's (r, q) sits
    at, once row r of the block is row I 0 of the array, I's column is q, and the block of the bias is the bias. -/
theorem block_eq (A : S50000x64.Idx → EReal) (B : S1x64.Idx → EReal) (x0 : S5000x64.Idx → EReal) (x1 : S1x64.Idx → EReal)
    (r : Fin 5000) (q : Fin 64) (I : S50000x64.Idx) (hI : (I 1).val = q.val)
    (h0 : ∀ k : Fin 64, x0 (ix2 r k) = A (ix2 (I 0) k)) (h1 : ∀ k : Fin 64, x1 (ix2 (0 : Fin 1) k) = B (ix2 (0 : Fin 1) k)) :
    Cert.Spec.biasLogSoftmax (n := 5000) (d := 64) x0 x1 (ix2 r q) = Cert.Spec.biasLogSoftmax (n := 50000) (d := 64) A B I := by
  have hq : I 1 = q := Fin.ext hI
  have hrow : Cert.Spec.biasedRow (n := 5000) (d := 64) x0 x1 r = Cert.Spec.biasedRow (n := 50000) (d := 64) A B (I 0) :=
    funext fun k => by
      show x0 (ix2 r k) + x1 (ix2 (0 : Fin 1) k) = A (ix2 (I 0) k) + B (ix2 (0 : Fin 1) k)
      rw [h0, h1]
  show (Cert.Spec.biasedRow (n := 5000) (d := 64) x0 x1 r q - Cert.Spec.rowMax (Cert.Spec.biasedRow (n := 5000) (d := 64) x0 x1 r))
      - Ideal.log (∑ k : Fin 64, Ideal.exp (Cert.Spec.biasedRow (n := 5000) (d := 64) x0 x1 r k
          - Cert.Spec.rowMax (Cert.Spec.biasedRow (n := 5000) (d := 64) x0 x1 r)))
    = (Cert.Spec.biasedRow (n := 50000) (d := 64) A B (I 0) (I 1) - Cert.Spec.rowMax (Cert.Spec.biasedRow (n := 50000) (d := 64) A B (I 0)))
      - Ideal.log (∑ k : Fin 64, Ideal.exp (Cert.Spec.biasedRow (n := 50000) (d := 64) A B (I 0) k
          - Cert.Spec.rowMax (Cert.Spec.biasedRow (n := 50000) (d := 64) A B (I 0))))
  rw [hrow, hq]

/-- What point t writes back is block t of the logarithmic softmax, with bias, of the whole arrays. -/
theorem flushed_eq (c : Dev nD) (t : Fin cfg3.N) :
    (dat3 (F := Ideal) V c).flushed 2 t = ((cfg3.win 2).blk t).view.read (Elt Ideal)
      (Cert.Spec.biasLogSoftmax (V c main_v61 : S50000x64.Idx → EReal) (V c main_v62 : S1x64.Idx → EReal)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  rw [pay_eq]
  obtain ⟨e0, e1, e2, e3, e4, e5⟩ := idx_facts t
  funext j
  obtain ⟨r, q, rfl⟩ : ∃ (r : Fin 5000) (q : Fin 64), j = ix2 r q := ⟨j 0, j 1, eq_ix2 j⟩
  have h0 : ∀ k : Fin 64, ((cfg3.win 0).blk t).view.emb (ix2 r k)
      = ix2 ((((cfg3.win 2).blk t).view.emb (ix2 r q)) 0) k := fun k => by
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 64 + 1 * k.val = k.val; omega
  have h1 : ∀ k : Fin 64, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 64 + 1 * k.val = k.val; omega
  refine block_eq (V c main_v61) (V c main_v62) (iblk3 V c 0 t) (iblk3 V c 1 t) r q
    (((cfg3.win 2).blk t).view.emb (ix2 r q)) ?_ (fun k => ?_) (fun k => ?_)
  · show win3_2.index t (1 : Fin 2) * 64 + 1 * q.val = q.val
    omega
  · show (V c main_v61 : S50000x64.Idx → EReal) (((cfg3.win 0).blk t).view.emb (ix2 r k))
      = (V c main_v61 : S50000x64.Idx → EReal) (ix2 ((((cfg3.win 2).blk t).view.emb (ix2 r q)) 0) k)
    exact congrArg (V c main_v61 : S50000x64.Idx → EReal) (h0 k)
  · show (V c main_v62 : S1x64.Idx → EReal) (((cfg3.win 1).blk t).view.emb (ix2 (0 : Fin 1) k))
      = (V c main_v62 : S1x64.Idx → EReal) (ix2 (0 : Fin 1) k)
    exact congrArg (V c main_v62 : S1x64.Idx → EReal) (h1 k)

/-- An index of the output array is in point t's block iff each coordinate is in the block's range on its axis. -/
theorem mem_blk (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v63).slice (win3_2.rect t)).set ↔ _
  rw [View.set_slice_whole, Rect.mem_set_unit]
  exact Iff.rfl

/-- Every index is in some point's block: row r is in the block of point r / 5000. -/
theorem cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  have ht : (i 0).val / 5000 < cfg3.N := by rw [hN]; omega
  obtain ⟨e0, e1, e2, e3, e4, e5⟩ := idx_facts ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 64 ≤ (i 1).val
      ∧ (i 1).val < win3_2.index ⟨(i 0).val / 5000, ht⟩ (1 : Fin 2) * 64 + 64
    omega

end R3

/-- The output array after the region: entry (r, q) is the logarithmic softmax along row r of a + b at column q, of
    the arrays the region finds. -/
theorem final3 (c : Dev nD) : (dat3 (F := Ideal) V c).arrAt 2 cfg3.N
    = Cert.Spec.biasLogSoftmax (V c main_v61 : S50000x64.Idx → EReal) (V c main_v62 : S1x64.Idx → EReal) :=
  (dat3 (F := Ideal) V c).arrAt_eq_of_cover 2 _ (fun t _ => R3.flushed_eq V c t) R3.cover

end Cert.KernelIdeal.Val

end
-- ==== Proof.KernelValue.lean ====
/-
  The kernel program's result is the network. Launch by launch: the first launch leaves x·W1 (its row blocks tile the
  array), the host mixes it along the edges, the second launch adds the first bias and rectifies, the third multiplies
  by W2, the host mixes again, and the last launch adds the second bias and takes the logarithmic softmax of each
  row. Each launch's array is read through the generated frame at the contents the launch was entered with; each host
  stretch by its own operations.
-/
import proofs.«123015_j22625887715699_1_alg».proof.Proof.KernelRun
import proofs.«123015_j22625887715699_1_alg».proof.Proof.HostValues
import proofs.«123015_j22625887715699_1_alg».proof.Proof.Region0
import proofs.«123015_j22625887715699_1_alg».proof.Proof.Region1
import proofs.«123015_j22625887715699_1_alg».proof.Proof.Region2
import proofs.«123015_j22625887715699_1_alg».proof.Proof.Region3

set_option maxRecDepth 16384

noncomputable section

namespace Cert.KernelIdeal.Val

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- After the first launch its result array holds x·W1. -/
theorem after_launch0 (c : Dev nD) :
    W4 m ρ c (Proc.devRef .tc main_v32) = Cert.Spec.matProd (m ((c : Thread nD τ).loc main_arg0)) (m ((c : Thread nD τ).loc main_arg3)) :=
  (W4_arr m ρ c 2).trans ((final0 (V3 m ρ) c).trans (by rw [V3_arg0, V3_arg3]))

/-- After the second launch its result array holds the rectified, biased first-layer features. -/
theorem after_launch1 (c : Dev nD) :
    V6 m ρ c main_v47
      = Cert.Spec.biasRelu (Cert.ReferenceIdeal.RefValue.mix128 (Cert.Spec.matProd (m ((c : Thread nD τ).loc main_arg0)) (m ((c : Thread nD τ).loc main_arg3))) (m ((c : Thread nD τ).loc main_arg1)) (m ((c : Thread nD τ).loc main_arg2)))
          (Cert.ReferenceIdeal.Read.val_main_v46 (F := Ideal) (m ((c : Thread nD τ).loc main_arg4))) :=
  (W6_arr m ρ c 2).trans ((final1 (V5 m ρ) c).trans (by rw [V5_v45 m ρ c _ (after_launch0 m ρ c), V5_v46]))

/-- After the third launch its result array holds those features times W2. -/
theorem after_launch2 (c : Dev nD) :
    W7 m ρ c (Proc.devRef .tc main_v48)
      = Cert.Spec.matProd (Cert.Spec.biasRelu (Cert.ReferenceIdeal.RefValue.mix128 (Cert.Spec.matProd (m ((c : Thread nD τ).loc main_arg0)) (m ((c : Thread nD τ).loc main_arg3))) (m ((c : Thread nD τ).loc main_arg1)) (m ((c : Thread nD τ).loc main_arg2)))
          (Cert.ReferenceIdeal.Read.val_main_v46 (F := Ideal) (m ((c : Thread nD τ).loc main_arg4)))) (m ((c : Thread nD τ).loc main_arg5)) :=
  (W7_arr m ρ c 2).trans ((final2 (V6 m ρ) c).trans (by rw [after_launch1, V6_arg5]))

/-- The kernel program's result: after the last launch the result array holds the network of the seven arguments. -/
theorem kernel_value (c : Dev nD) :
    W9 m ρ c (Proc.devRef .tc main_v63) = Cert.ReferenceIdeal.RefValue.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W9_arr m ρ c 2).trans ((final3 (V8 m ρ) c).trans (by rw [V8_v61 m ρ c _ (after_launch2 m ρ c), V8_v62]; rfl))

end Cert.KernelIdeal.Val

end
-- ==== Proof.RefRunArgs.lean ====
/-
  The reference's host operations write their own result buffers only: each of its 132 operations has one
  result, and no result is one of the seven argument buffers. So whatever the buffers hold before the operations
  run, each argument buffer holds the same afterwards.
-/
import proofs.«123015_j22625887715699_1_alg».proof.Proof.RefRun
import Idealize.ShloMosaic.Lib.StableHlo.Run
import Idealize.ShloMosaic.PureOps.Ideal

noncomputable section

namespace Cert.ReferenceIdeal.ByHandArgs

open Cert.ReferenceIdeal Cert.ReferenceIdeal.Gen Cert.ReferenceIdeal.Value Idealize.ShloMosaic Idealize.ShloMosaic.TcCoe Idealize.SL.Sem Idealize.ShloMosaic.StableHlo

set_option maxRecDepth 8192 in
set_option maxHeartbeats 4000000 in
/-- Argument 0 is no operation's result: it is as it was. -/
theorem arg0_kept (W : Valuation τ sig (Elt Ideal)) :
    after (ops (F := Ideal)) W (Proc.devRef .tc main_arg0) = W (Proc.devRef .tc main_arg0) :=
  after_of_forall_not_mem (b := Proc.devRef .tc main_arg0) _ _ (List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide)))

set_option maxRecDepth 8192 in
set_option maxHeartbeats 4000000 in
/-- Argument 1 is no operation's result: it is as it was. -/
theorem arg1_kept (W : Valuation τ sig (Elt Ideal)) :
    after (ops (F := Ideal)) W (Proc.devRef .tc main_arg1) = W (Proc.devRef .tc main_arg1) :=
  after_of_forall_not_mem (b := Proc.devRef .tc main_arg1) _ _ (List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide)))

set_option maxRecDepth 8192 in
set_option maxHeartbeats 4000000 in
/-- Argument 2 is no operation's result: it is as it was. -/
theorem arg2_kept (W : Valuation τ sig (Elt Ideal)) :
    after (ops (F := Ideal)) W (Proc.devRef .tc main_arg2) = W (Proc.devRef .tc main_arg2) :=
  after_of_forall_not_mem (b := Proc.devRef .tc main_arg2) _ _ (List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide)))

set_option maxRecDepth 8192 in
set_option maxHeartbeats 4000000 in
/-- Argument 3 is no operation's result: it is as it was. -/
theorem arg3_kept (W : Valuation τ sig (Elt Ideal)) :
    after (ops (F := Ideal)) W (Proc.devRef .tc main_arg3) = W (Proc.devRef .tc main_arg3) :=
  after_of_forall_not_mem (b := Proc.devRef .tc main_arg3) _ _ (List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide)))

set_option maxRecDepth 8192 in
set_option maxHeartbeats 4000000 in
/-- Argument 4 is no operation's result: it is as it was. -/
theorem arg4_kept (W : Valuation τ sig (Elt Ideal)) :
    after (ops (F := Ideal)) W (Proc.devRef .tc main_arg4) = W (Proc.devRef .tc main_arg4) :=
  after_of_forall_not_mem (b := Proc.devRef .tc main_arg4) _ _ (List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide)))

set_option maxRecDepth 8192 in
set_option maxHeartbeats 4000000 in
/-- Argument 5 is no operation's result: it is as it was. -/
theorem arg5_kept (W : Valuation τ sig (Elt Ideal)) :
    after (ops (F := Ideal)) W (Proc.devRef .tc main_arg5) = W (Proc.devRef .tc main_arg5) :=
  after_of_forall_not_mem (b := Proc.devRef .tc main_arg5) _ _ (List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide)))

set_option maxRecDepth 8192 in
set_option maxHeartbeats 4000000 in
/-- Argument 6 is no operation's result: it is as it was. -/
theorem arg6_kept (W : Valuation τ sig (Elt Ideal)) :
    after (ops (F := Ideal)) W (Proc.devRef .tc main_arg6) = W (Proc.devRef .tc main_arg6) :=
  after_of_forall_not_mem (b := Proc.devRef .tc main_arg6) _ _ (List.forall_iff_forall_mem.mp (by
    simp only [ops, List.Forall, nullary_writes, unary_writes, binary_writes, ternary_writes, quaternary_writes,
      reshape_writes, binaryIndexed_writes, Finset.mem_singleton]
    repeat' apply And.intro
    all_goals exact devRef_ne_of_ne (by decide)))

end Cert.ReferenceIdeal.ByHandArgs

end
-- ==== Proof.RefRunByHand.lean ====
/-
  The reference program's run, read stretch by stretch. The reference is a straight line of 132 host operations; every
  weakly fair execution ends with each buffer at the fold of the operations' results over the launch contents. The fold
  is cut into thirteen stretches: the edge lists with their self loops, the weights with their ones and the first product
  (11 operations); the degrees, their sign and inverse square root (9); the choice between the inverse square root and
  zero (3, a called function); the normalised weights and the first layer up to its bias (39); the first layer's
  rectifier (3, a called function); the second product and the degrees again (10); the choice again (3); the second
  layer up to its bias (39); the closing logarithmic softmax (15, a called function, in five short stretches). A called function's operations
  move their operands between a buffer's own type and the value's type; they are read over arbitrary contents, where
  that move is the identity on a variable, and every other stretch is read from the few buffers the stretches before
  left. The result buffer then holds the last stage of the seven arguments.
-/
import proofs.«123015_j22625887715699_1_alg».proof.Proof.RefRun
import proofs.«123015_j22625887715699_1_alg».proof.Proof.RefRead
import proofs.«123015_j22625887715699_1_alg».proof.Proof.RefRunArgs
import Idealize.ShloMosaic.Lib.StableHlo.Run
import Idealize.ShloMosaic.PureOps.Ideal

set_option maxRecDepth 16384
set_option maxHeartbeats 32000000

noncomputable section

namespace Cert.ReferenceIdeal.ByHand

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

abbrev Val := Valuation τ sig (Elt Ideal)

/-- Folding a line of operations cut in two is folding the second part over the first part's fold. -/
theorem after_append (l1 l2 : List (HloOp τ sig (Elt Ideal))) (V : Val) : after (l1 ++ l2) V = after l2 (after l1 V) := by
  induction l1 generalizing V with
  | nil => rfl
  | cons op l ih => exact ih _

theorem after_split (n : Nat) (l : List (HloOp τ sig (Elt Ideal))) (V : Val) :
    after l V = after (l.drop n) (after (l.take n) V) := by
  rw [← after_append, List.take_append_drop]

/-! ## The thirteen stretches -/

/-- Operations 0–10: the edge lists with their self loops, the weights with their ones, the first product. -/
abbrev P0 : List (HloOp τ sig (Elt Ideal)) := (ops (F := Ideal)).take 11
abbrev rest0 : List (HloOp τ sig (Elt Ideal)) := (ops (F := Ideal)).drop 11
/-- Operations 11–19: the degrees, where they are positive, their inverse square root, a scalar zero. -/
abbrev P1 : List (HloOp τ sig (Elt Ideal)) := rest0.take 9
abbrev rest1 : List (HloOp τ sig (Elt Ideal)) := rest0.drop 9
/-- Operations 20–22: the inverse square root where the degree is positive, zero elsewhere. -/
abbrev P2 : List (HloOp τ sig (Elt Ideal)) := rest1.take 3
abbrev rest2 : List (HloOp τ sig (Elt Ideal)) := rest1.drop 3
/-- Operations 23–61: the normalised weights, the first layer's mixing along the edges, its bias. -/
abbrev P3 : List (HloOp τ sig (Elt Ideal)) := rest2.take 39
abbrev rest3 : List (HloOp τ sig (Elt Ideal)) := rest2.drop 39
/-- Operations 62–64: the first layer's rectifier. -/
abbrev P4 : List (HloOp τ sig (Elt Ideal)) := rest3.take 3
abbrev rest4 : List (HloOp τ sig (Elt Ideal)) := rest3.drop 3
/-- Operations 65–74: the second product, the degrees again. -/
abbrev P5 : List (HloOp τ sig (Elt Ideal)) := rest4.take 10
abbrev rest5 : List (HloOp τ sig (Elt Ideal)) := rest4.drop 10
/-- Operations 75–77: the choice between the inverse square root and zero again. -/
abbrev P6 : List (HloOp τ sig (Elt Ideal)) := rest5.take 3
abbrev rest6 : List (HloOp τ sig (Elt Ideal)) := rest5.drop 3
/-- Operations 78–116: the normalised weights again, the second layer's mixing, its bias. -/
abbrev P7 : List (HloOp τ sig (Elt Ideal)) := rest6.take 39
abbrev rest7 : List (HloOp τ sig (Elt Ideal)) := rest6.drop 39
/-- Operations 117–118: each row's maximum, from −∞. -/
abbrev Q1 : List (HloOp τ sig (Elt Ideal)) := rest7.take 2
abbrev rest8 : List (HloOp τ sig (Elt Ideal)) := rest7.drop 2
/-- Operations 119–121: the maximum once more against −∞. -/
abbrev Q2 : List (HloOp τ sig (Elt Ideal)) := rest8.take 3
abbrev rest9 : List (HloOp τ sig (Elt Ideal)) := rest8.drop 3
/-- Operations 122–124: the rows with their maximum subtracted. -/
abbrev Q3 : List (HloOp τ sig (Elt Ideal)) := rest9.take 3
abbrev rest10 : List (HloOp τ sig (Elt Ideal)) := rest9.drop 3
/-- Operations 125–127: each row's sum of the exponentials. -/
abbrev Q4 : List (HloOp τ sig (Elt Ideal)) := rest10.take 3
/-- Operations 128–131: the logarithm of the sum, subtracted. -/
abbrev Q5 : List (HloOp τ sig (Elt Ideal)) := rest10.drop 3

def V1 (W : Val) : Val := after P0 W
def V2 (W : Val) : Val := after P1 (V1 W)
def V3 (W : Val) : Val := after P2 (V2 W)
def V4 (W : Val) : Val := after P3 (V3 W)
def V5 (W : Val) : Val := after P4 (V4 W)
def V6 (W : Val) : Val := after P5 (V5 W)
def V7 (W : Val) : Val := after P6 (V6 W)
def V8 (W : Val) : Val := after P7 (V7 W)
def V9 (W : Val) : Val := after Q1 (V8 W)
def V10 (W : Val) : Val := after Q2 (V9 W)
def V11 (W : Val) : Val := after Q3 (V10 W)
def V12 (W : Val) : Val := after Q4 (V11 W)
def V13 (W : Val) : Val := after Q5 (V12 W)

theorem after_ops (W : Val) : after (ops (F := Ideal)) W = V13 W := by
  unfold V13 V12 V11 V10 V9 V8 V7 V6 V5 V4 V3 V2 V1
  rw [after_split 11 ops W,
    after_split 9 (List.drop 11 ops),
    after_split 3 (List.drop 9 (List.drop 11 ops)),
    after_split 39 (List.drop 3 (List.drop 9 (List.drop 11 ops))),
    after_split 3 (List.drop 39 (List.drop 3 (List.drop 9 (List.drop 11 ops)))),
    after_split 10 (List.drop 3 (List.drop 39 (List.drop 3 (List.drop 9 (List.drop 11 ops))))),
    after_split 3 (List.drop 10 (List.drop 3 (List.drop 39 (List.drop 3 (List.drop 9 (List.drop 11 ops)))))),
    after_split 39 (List.drop 3 (List.drop 10 (List.drop 3 (List.drop 39 (List.drop 3 (List.drop 9 (List.drop 11 ops))))))),
    after_split 2 (List.drop 39 (List.drop 3 (List.drop 10 (List.drop 3 (List.drop 39 (List.drop 3 (List.drop 9 (List.drop 11 ops)))))))),
    after_split 3 (List.drop 2 (List.drop 39 (List.drop 3 (List.drop 10 (List.drop 3 (List.drop 39 (List.drop 3 (List.drop 9 (List.drop 11 ops))))))))),
    after_split 3 (List.drop 3 (List.drop 2 (List.drop 39 (List.drop 3 (List.drop 10 (List.drop 3 (List.drop 39 (List.drop 3 (List.drop 9 (List.drop 11 ops)))))))))),
    after_split 3 (List.drop 3 (List.drop 3 (List.drop 2 (List.drop 39 (List.drop 3 (List.drop 10 (List.drop 3 (List.drop 39 (List.drop 3 (List.drop 9 (List.drop 11 ops)))))))))))]

/-- The stretches' slices of the line written out as literal lists, then every operation's result read at its own
    buffer or passed over at another's: what is left is the operations' composed term over the buffers found. -/
macro "read_slices" : tactic =>
  `(tactic| (simp only [P0, P1, P2, P3, P4, P5, P6, P7, Q1, Q2, Q3, Q4, Q5, rest0, rest1, rest2, rest3, rest4, rest5, rest6, rest7,
               rest8, rest9, rest10, ops,
               List.drop_succ_cons, List.drop_zero, List.take_succ_cons, List.take_zero]
             after_results_simp))

/-- The same for the last stretch of a fold, the contents before it kept folded. -/
macro "read_stretch" : tactic => `(tactic| (show after _ _ _ = _; read_slices))

/-! ## Stretch 0: the edge lists, the weights, the first product, from the arguments

The three joins keep their operands' short folds inside; `rfl` walks them. -/

theorem V1_v3 (W : Val) : V1 W (Proc.devRef .tc main_v3) = val_main_v3 (F := Ideal) (W (Proc.devRef .tc main_arg1)) := by
  read_stretch
  rfl
theorem V1_v6 (W : Val) : V1 W (Proc.devRef .tc main_v6) = val_main_v6 (F := Ideal) (W (Proc.devRef .tc main_arg1)) := by
  read_stretch
  rfl
theorem V1_v8 (W : Val) : V1 W (Proc.devRef .tc main_v8) = val_main_v8 (F := Ideal) (W (Proc.devRef .tc main_arg2)) := by
  read_stretch
  rfl
theorem V1_v9 (W : Val) : V1 W (Proc.devRef .tc main_v9)
    = val_main_v9 (F := Ideal) (W (Proc.devRef .tc main_arg0)) (W (Proc.devRef .tc main_arg3)) := by
  read_stretch
  rfl

/-! ## Stretch 1: where the degree is positive, its inverse square root, a scalar zero -/

theorem V2_v14 (W : Val) : V2 W (Proc.devRef .tc main_v14)
    = val_main_v14 (F := Ideal) (W (Proc.devRef .tc main_arg1)) (W (Proc.devRef .tc main_arg2)) := by
  read_stretch
  rw [V1_v6, V1_v8]
  rfl
theorem V2_v15 (W : Val) : V2 W (Proc.devRef .tc main_v15)
    = val_main_v15 (F := Ideal) (W (Proc.devRef .tc main_arg1)) (W (Proc.devRef .tc main_arg2)) := by
  read_stretch
  rw [V1_v6, V1_v8]
  rfl
theorem V2_cst2 (W : Val) : V2 W (Proc.devRef .tc main_cst_2) = val_main_cst_2 (F := Ideal) := by
  read_stretch
  rfl

/-! ## Stretch 2: the factor per node, over any contents before it -/

theorem factor_of (F : Val) : after P2 F (Proc.devRef .tc main_v16)
    = (select (F (Proc.devRef .tc main_v14) : (⟨S50000, .i1⟩ : BufTy).Contents (Elt Ideal)) (F (Proc.devRef .tc main_v15) : (⟨S50000, .f32⟩ : BufTy).Contents (Elt Ideal))
        (broadcastInDim S50000 ![] bcast_S_S50000 (id (F (Proc.devRef .tc main_cst_2) : (⟨S_, .f32⟩ : BufTy).Contents (Elt Ideal))) : (⟨S50000, .f32⟩ : BufTy).Contents (Elt Ideal)) : (⟨S50000, .f32⟩ : BufTy).Contents (Elt Ideal)) := by
  read_slices
  rfl

theorem V3_v16 (W : Val) : V3 W (Proc.devRef .tc main_v16)
    = val_main_v16 (F := Ideal) (W (Proc.devRef .tc main_arg1)) (W (Proc.devRef .tc main_arg2)) := by
  show after P2 (V2 W) _ = _
  rw [factor_of, V2_v14, V2_v15, V2_cst2]
  rfl

-- what stretches 1 and 2 do not write they carry
theorem V3_v3 (W : Val) : V3 W (Proc.devRef .tc main_v3) = val_main_v3 (F := Ideal) (W (Proc.devRef .tc main_arg1)) := by
  simp only [V3, V2]
  read_slices
  exact V1_v3 W
theorem V3_v6 (W : Val) : V3 W (Proc.devRef .tc main_v6) = val_main_v6 (F := Ideal) (W (Proc.devRef .tc main_arg1)) := by
  simp only [V3, V2]
  read_slices
  exact V1_v6 W
theorem V3_v8 (W : Val) : V3 W (Proc.devRef .tc main_v8) = val_main_v8 (F := Ideal) (W (Proc.devRef .tc main_arg2)) := by
  simp only [V3, V2]
  read_slices
  exact V1_v8 W
theorem V3_v9 (W : Val) : V3 W (Proc.devRef .tc main_v9)
    = val_main_v9 (F := Ideal) (W (Proc.devRef .tc main_arg0)) (W (Proc.devRef .tc main_arg3)) := by
  simp only [V3, V2]
  read_slices
  exact V1_v9 W
theorem V3_arg4 (W : Val) : V3 W (Proc.devRef .tc main_arg4) = W (Proc.devRef .tc main_arg4) := by
  simp only [V3, V2, V1]
  read_slices

/-! ## Stretch 3: the first layer up to its bias -/

theorem V4_v48 (W : Val) : V4 W (Proc.devRef .tc main_v48)
    = val_main_v48 (F := Ideal) (W (Proc.devRef .tc main_arg0)) (W (Proc.devRef .tc main_arg1)) (W (Proc.devRef .tc main_arg2))
        (W (Proc.devRef .tc main_arg3)) (W (Proc.devRef .tc main_arg4)) := by
  read_stretch
  rw [V3_v16, V3_v3, V3_v6, V3_v8, V3_v9, V3_arg4]
  rfl

/-! ## Stretch 4: the first layer's rectifier, over any contents before it -/

theorem rectified_of (U : Val) : after P4 U (Proc.devRef .tc main_v49)
    = (maximumf (F := Ideal) (s := S50000x128) (φ := .f32) (U (Proc.devRef .tc main_v48) : (⟨S50000x128, .f32⟩ : BufTy).Contents (Elt Ideal))
        (broadcastInDim S50000x128 ![] bcast_S_S50000x128 (constant (F := Ideal) S_ .f32 0x00000000#32)
          : (⟨S50000x128, .f32⟩ : BufTy).Contents (Elt Ideal)) : (⟨S50000x128, .f32⟩ : BufTy).Contents (Elt Ideal)) := by
  read_slices
  rfl

theorem V5_v49 (W : Val) : V5 W (Proc.devRef .tc main_v49)
    = val_main_v49 (F := Ideal) (W (Proc.devRef .tc main_arg0)) (W (Proc.devRef .tc main_arg1)) (W (Proc.devRef .tc main_arg2))
        (W (Proc.devRef .tc main_arg3)) (W (Proc.devRef .tc main_arg4)) := by
  show after P4 (V4 W) _ = _
  rw [rectified_of, V4_v48]
  rfl

-- what stretches 3 and 4 do not write they carry
theorem V5_v3 (W : Val) : V5 W (Proc.devRef .tc main_v3) = val_main_v3 (F := Ideal) (W (Proc.devRef .tc main_arg1)) := by
  simp only [V5, V4]
  read_slices
  exact V3_v3 W
theorem V5_v6 (W : Val) : V5 W (Proc.devRef .tc main_v6) = val_main_v6 (F := Ideal) (W (Proc.devRef .tc main_arg1)) := by
  simp only [V5, V4]
  read_slices
  exact V3_v6 W
theorem V5_v8 (W : Val) : V5 W (Proc.devRef .tc main_v8) = val_main_v8 (F := Ideal) (W (Proc.devRef .tc main_arg2)) := by
  simp only [V5, V4]
  read_slices
  exact V3_v8 W
theorem V5_arg5 (W : Val) : V5 W (Proc.devRef .tc main_arg5) = W (Proc.devRef .tc main_arg5) := by
  simp only [V5, V4, V3, V2, V1]
  read_slices

/-! ## Stretch 5: the second product, and where the degree is positive, its inverse square root, a scalar zero -/

theorem V6_v50 (W : Val) : V6 W (Proc.devRef .tc main_v50)
    = val_main_v50 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  read_stretch
  rw [V5_v49, V5_arg5]
  rfl
theorem V6_v55 (W : Val) : V6 W (Proc.devRef .tc main_v55)
    = val_main_v55 (F := Ideal) (W (Proc.devRef .tc main_arg1)) (W (Proc.devRef .tc main_arg2)) := by
  read_stretch
  rw [V5_v6, V5_v8]
  rfl
theorem V6_v56 (W : Val) : V6 W (Proc.devRef .tc main_v56)
    = val_main_v56 (F := Ideal) (W (Proc.devRef .tc main_arg1)) (W (Proc.devRef .tc main_arg2)) := by
  read_stretch
  rw [V5_v6, V5_v8]
  rfl
theorem V6_cst11 (W : Val) : V6 W (Proc.devRef .tc main_cst_11) = val_main_cst_11 (F := Ideal) := by
  read_stretch
  rfl

/-! ## Stretch 6: the factor per node again, over any contents before it -/

theorem factor_of' (F : Val) : after P6 F (Proc.devRef .tc main_v57)
    = (select (F (Proc.devRef .tc main_v55) : (⟨S50000, .i1⟩ : BufTy).Contents (Elt Ideal))
        (F (Proc.devRef .tc main_v56) : (⟨S50000, .f32⟩ : BufTy).Contents (Elt Ideal))
        (broadcastInDim S50000 ![] bcast_S_S50000 (id (F (Proc.devRef .tc main_cst_11) : (⟨S_, .f32⟩ : BufTy).Contents (Elt Ideal)))
          : (⟨S50000, .f32⟩ : BufTy).Contents (Elt Ideal)) : (⟨S50000, .f32⟩ : BufTy).Contents (Elt Ideal)) := by
  read_slices
  rfl

theorem V7_v57 (W : Val) : V7 W (Proc.devRef .tc main_v57)
    = val_main_v57 (F := Ideal) (W (Proc.devRef .tc main_arg1)) (W (Proc.devRef .tc main_arg2)) := by
  show after P6 (V6 W) _ = _
  rw [factor_of', V6_v55, V6_v56, V6_cst11]
  rfl

-- what stretches 5 and 6 do not write they carry
theorem V7_v3 (W : Val) : V7 W (Proc.devRef .tc main_v3) = val_main_v3 (F := Ideal) (W (Proc.devRef .tc main_arg1)) := by
  simp only [V7, V6]
  read_slices
  exact V5_v3 W
theorem V7_v6 (W : Val) : V7 W (Proc.devRef .tc main_v6) = val_main_v6 (F := Ideal) (W (Proc.devRef .tc main_arg1)) := by
  simp only [V7, V6]
  read_slices
  exact V5_v6 W
theorem V7_v8 (W : Val) : V7 W (Proc.devRef .tc main_v8) = val_main_v8 (F := Ideal) (W (Proc.devRef .tc main_arg2)) := by
  simp only [V7, V6]
  read_slices
  exact V5_v8 W
theorem V7_v50 (W : Val) : V7 W (Proc.devRef .tc main_v50)
    = val_main_v50 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5)) := by
  simp only [V7]
  read_slices
  exact V6_v50 W
theorem V7_arg6 (W : Val) : V7 W (Proc.devRef .tc main_arg6) = W (Proc.devRef .tc main_arg6) := by
  simp only [V7, V6, V5, V4, V3, V2, V1]
  read_slices

/-! ## Stretch 7: the second layer up to its bias -/

theorem V8_v89 (W : Val) : V8 W (Proc.devRef .tc main_v89)
    = val_main_v89 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  read_stretch
  rw [V7_v57, V7_v3, V7_v6, V7_v8, V7_v50, V7_arg6]
  rfl

/-! ## The last five stretches: the logarithmic softmax of each row

Its fifteen operations are a called function's; each short stretch is read over any contents before it, then at the
contents the run has there. -/

/-- Each row's maximum, taken from −∞. -/
theorem rowmax_of (U : Val) : after Q1 U (Proc.devRef .tc main_call3_v0)
    = (Host.reduce (FloatOps.maximumf (F := Ideal) (φ := .f32)) (U (Proc.devRef .tc main_v89) : (⟨S50000x64, .f32⟩ : BufTy).Contents (Elt Ideal))
        (constant (F := Ideal) S_ .f32 0xFF800000#32) reducesTo_S50000x64_S50000_d1 h_S_ : (⟨S50000, .f32⟩ : BufTy).Contents (Elt Ideal)) := by
  read_slices
  -- the move back to the buffer's own type is the identity; then the two folds have the same operands
  refine (cast_eq _ _).trans ?_
  rfl
theorem V9_rowmax (W : Val) : V9 W (Proc.devRef .tc main_call3_v0) = val_main_call3_v0 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  show after Q1 (V8 W) _ = _
  rw [rowmax_of, V8_v89]
  rfl

/-- … and once more against −∞. -/
theorem rowmax'_of (U : Val) : after Q2 U (Proc.devRef .tc main_call3_v2)
    = (maximumf (F := Ideal) (s := S50000) (φ := .f32)
        (broadcastInDim S50000 ![] bcast_S_S50000 (constant (F := Ideal) S_ .f32 0xFF800000#32))
        (U (Proc.devRef .tc main_call3_v0) : (⟨S50000, .f32⟩ : BufTy).Contents (Elt Ideal)) : (⟨S50000, .f32⟩ : BufTy).Contents (Elt Ideal)) := by
  read_slices
  rfl
theorem V10_rowmax' (W : Val) : V10 W (Proc.devRef .tc main_call3_v2) = val_main_call3_v2 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  show after Q2 (V9 W) _ = _
  rw [rowmax'_of, V9_rowmax]
  rfl
theorem V10_v89 (W : Val) : V10 W (Proc.devRef .tc main_v89) = val_main_v89 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  simp only [V10, V9]
  read_slices
  exact V8_v89 W

/-- The rows with their maximum subtracted. -/
theorem centred_of (U : Val) : after Q3 U (Proc.devRef .tc main_call3_v5)
    = (subf (F := Ideal) (s := S50000x64) (φ := .f32) (U (Proc.devRef .tc main_v89) : (⟨S50000x64, .f32⟩ : BufTy).Contents (Elt Ideal))
        (broadcastInDim S50000x64 ![0, 1] bcast_S50000x1_S50000x64_0_1
          (broadcastInDim S50000x1 ![0] bcast_S50000_S50000x1_0 (U (Proc.devRef .tc main_call3_v2) : (⟨S50000, .f32⟩ : BufTy).Contents (Elt Ideal)) : (⟨S50000x1, .f32⟩ : BufTy).Contents (Elt Ideal)))
        : (⟨S50000x64, .f32⟩ : BufTy).Contents (Elt Ideal)) := by
  read_slices
  rfl
theorem V11_centred (W : Val) : V11 W (Proc.devRef .tc main_call3_v5) = val_main_call3_v5 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  show after Q3 (V10 W) _ = _
  rw [centred_of, V10_v89, V10_rowmax']
  rfl

/-- Each row's sum of the exponentials. -/
theorem expsum_of (U : Val) : after Q4 U (Proc.devRef .tc main_call3_v7)
    = (Host.reduceAdd (F := Ideal) (φ := .f32)
        (Host.exp (F := Ideal) (s := S50000x64) (φ := .f32) (U (Proc.devRef .tc main_call3_v5) : (⟨S50000x64, .f32⟩ : BufTy).Contents (Elt Ideal)))
        (constant (F := Ideal) S_ .f32 0x00000000#32) reducesTo_S50000x64_S50000_d1 h_S_ : (⟨S50000, .f32⟩ : BufTy).Contents (Elt Ideal)) := by
  read_slices
  rfl
theorem V12_expsum (W : Val) : V12 W (Proc.devRef .tc main_call3_v7) = val_main_call3_v7 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  show after Q4 (V11 W) _ = _
  rw [expsum_of, V11_centred]
  rfl
theorem V12_centred (W : Val) : V12 W (Proc.devRef .tc main_call3_v5) = val_main_call3_v5 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  simp only [V12]
  read_slices
  exact V11_centred W

/-- The centred rows minus the logarithm of each row's sum. -/
theorem logsoftmax_of (U : Val) : after Q5 U (Proc.devRef .tc main_v90)
    = (subf (F := Ideal) (s := S50000x64) (φ := .f32) (U (Proc.devRef .tc main_call3_v5) : (⟨S50000x64, .f32⟩ : BufTy).Contents (Elt Ideal))
        (broadcastInDim S50000x64 ![0, 1] bcast_S50000x1_S50000x64_0_1
          (Host.log (F := Ideal) (s := S50000x1) (φ := .f32)
            (broadcastInDim S50000x1 ![0] bcast_S50000_S50000x1_0 (U (Proc.devRef .tc main_call3_v7) : (⟨S50000, .f32⟩ : BufTy).Contents (Elt Ideal)) : (⟨S50000x1, .f32⟩ : BufTy).Contents (Elt Ideal))))
        : (⟨S50000x64, .f32⟩ : BufTy).Contents (Elt Ideal)) := by
  read_slices
  rfl
theorem V13_v90 (W : Val) : V13 W (Proc.devRef .tc main_v90) = val_main_v90 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  show after Q5 (V12 W) _ = _
  rw [logsoftmax_of, V12_centred, V12_expsum]
  rfl

/-- The whole line's fold at the result buffer is the last stage of the seven arguments. -/
theorem value_v90 (W : Val) : after (ops (F := Ideal)) W (Proc.devRef .tc main_v90)
    = val_main_v90 (F := Ideal) (W (Proc.devRef .tc main_arg0)) (W (Proc.devRef .tc main_arg1)) (W (Proc.devRef .tc main_arg2))
        (W (Proc.devRef .tc main_arg3)) (W (Proc.devRef .tc main_arg4)) (W (Proc.devRef .tc main_arg5))
        (W (Proc.devRef .tc main_arg6)) := by
  rw [after_ops]
  exact V13_v90 W

/-! ## The run -/

/-- From any memory with zero counters every weakly fair execution of the reference ends with the result buffer at
    the last stage of the seven arguments' launch contents, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90)
          = val_main_v90 (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v90).trans (value_v90 _),
      (h c main_arg0).trans (ByHandArgs.arg0_kept _),
      (h c main_arg1).trans (ByHandArgs.arg1_kept _),
      (h c main_arg2).trans (ByHandArgs.arg2_kept _),
      (h c main_arg3).trans (ByHandArgs.arg3_kept _),
      (h c main_arg4).trans (ByHandArgs.arg4_kept _),
      (h c main_arg5).trans (ByHandArgs.arg5_kept _),
      (h c main_arg6).trans (ByHandArgs.arg6_kept _)⟩)
    (run_seq scopedRefs_eq scopedSems_eq defs main (fun _ => ops) main_eq (fun _ => ops_sub) m ρ)

end Cert.ReferenceIdeal.ByHand

end
-- ==== Proof.RefSoftmax.lean ====
/-
  The reference's closing step read row by row. With a the mixed features of the second layer and b the bias as a
  one-row matrix, z(r, q) = a(r, q) + b(0, q). The host takes each row's maximum from −∞ (a fold of max over the row),
  joins it with −∞ once more (which changes nothing: −∞ is the bottom of the extended reals), subtracts it, and then
  subtracts the logarithm of the row's sum of exponentials, taken from 0. Entry (r, q) of the result is therefore
  (z(r, q) − M(r)) − log ∑_{q'} exp (z(r, q') − M(r)) with M(r) the fold of max from −∞ over row r of z.
-/
import proofs.«123015_j22625887715699_1_alg».proof.Proof.RefRead
import proofs.«123015_j22625887715699_1_alg».proof.Proof.Spec
import Idealize.ShloMosaic.PureOps.Reduce
import Idealize.ShloMosaic.PureOps.Ideal.Laws
import Idealize.ShloMosaic.Lib.ValueIdx

noncomputable section

namespace Cert.ReferenceIdeal.RefSoftmax

open Idealize.ShloMosaic Idealize.ShloMosaic.ValueIdx Cert.ReferenceIdeal Cert.ReferenceIdeal.Gen Cert.ReferenceIdeal.Read

/-- Joining −∞ with y gives y. -/
theorem max_negInf (y : EReal) : max (Ideal.ofBits .f32 0xFF800000#32) y = y := by
  simp [Ideal.ofBits, Ideal.ieee]

/-- An index of a [50000] vector with column k put back on axis 1 is (r, k). -/
theorem lift_row (h : S50000x64.Reduces [1] S50000) (r : Fin 50000) (k : Fin (S50000x64.size 1)) :
    h.lift (ix1 r) k = ix2 r (⟨k.val, k.isLt⟩ : Fin 64) := by
  funext c; apply Fin.ext
  match c with
  | ⟨0, _⟩ => rfl
  | ⟨1, _⟩ => rfl

/-- The fold of max from −∞ over a row, the row's columns counted by either spelling of their number. -/
theorem fold_rowMax (g : Fin 64 → EReal) :
    (Finset.univ : Finset (Fin (S50000x64.size 1))).fold FloatOps.maximumf (Ideal.ofBits .f32 0xFF800000#32)
        (fun k => g (⟨k.val, k.isLt⟩ : Fin 64))
      = Cert.Spec.rowMax g := rfl

/-- The host's row maximum over an abstract array: if Y(r, q) = g r q for all (r, q) and the initial value is −∞,
    the reduce with a maximum body along the columns is, at row r, the fold of max from −∞ over g r. -/
theorem rowmax_of (Y : (⟨S50000x64, .f32⟩ : BufTy).Contents (Elt Ideal)) (g : Fin 50000 → Fin 64 → EReal)
    (hY : ∀ (r : Fin 50000) (q : Fin 64), Y (ix2 r q) = g r q)
    (c0 : (⟨S_, .f32⟩ : BufTy).Contents (Elt Ideal)) (hc : c0 (Shape.Idx.first h_S_) = Ideal.ofBits .f32 0xFF800000#32)
    (r : Fin 50000) :
    Host.reduce (FloatOps.maximumf (F := Ideal) (φ := .f32)) Y c0 reducesTo_S50000x64_S50000_d1 h_S_ (ix1 r) = Cert.Spec.rowMax (g r) := by
  have h : S50000x64.Reduces [1] S50000 := by decide
  refine (Host.reduce_eq_fold_single (FloatOps.maximumf (F := Ideal) (φ := .f32)) Y c0 reducesTo_S50000x64_S50000_d1 h h_S_ (ix1 r)).trans ?_
  have hf : (Y ∘ h.lift (ix1 r)) = fun k : Fin (S50000x64.size 1) => g r (⟨k.val, k.isLt⟩ : Fin 64) :=
    funext fun k => (congrArg Y (lift_row h r k)).trans (hY r ⟨k.val, k.isLt⟩)
  rw [hf, hc]
  exact fold_rowMax (g r)

section

variable (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal))

/-- The biased features: z(r, q) = a(r, q) + b(0, q). -/
theorem biased_apply (r : Fin 50000) (q : Fin 64) :
    val_main_v89 (F := Ideal) x0 x1 x2 x3 x4 x5 x6 (ix2 r q)
      = Cert.Spec.biasedRow (val_main_v86 (F := Ideal) x0 x1 x2 x3 x4 x5) (val_main_v87 (F := Ideal) x6) r q := by
  rw [val_main_v89_apply, val_main_v88_apply]
  have e : idx_main_v88 (ix2 r q) = ix2 (0 : Fin 1) q := funext fun a => by match a with | ⟨0, _⟩ => rfl | ⟨1, _⟩ => rfl
  rw [e]
  rfl

/-- The row's maximum as the host takes it: the fold of max from −∞ over the row. -/
theorem rowmax_apply (r : Fin 50000) :
    val_main_call3_v2 (F := Ideal) x0 x1 x2 x3 x4 x5 x6 (ix1 r)
      = Cert.Spec.rowMax (Cert.Spec.biasedRow (val_main_v86 (F := Ideal) x0 x1 x2 x3 x4 x5) (val_main_v87 (F := Ideal) x6) r) := by
  rw [val_main_call3_v2_apply, val_main_call3_v1_apply, val_main_call3_cst_0_apply]
  show max (Ideal.ofBits .f32 0xFF800000#32) _ = _
  rw [max_negInf]
  exact rowmax_of (val_main_v89 (F := Ideal) x0 x1 x2 x3 x4 x5 x6) (Cert.Spec.biasedRow (val_main_v86 (F := Ideal) x0 x1 x2 x3 x4 x5) (val_main_v87 (F := Ideal) x6))
    (biased_apply x0 x1 x2 x3 x4 x5 x6) (val_main_call3_cst (F := Ideal))
    ((val_main_call3_cst_apply _).trans (Ideal.ofBits_def _)) r

/-- The shifted features: z(r, q) − M(r). -/
theorem shifted_apply (r : Fin 50000) (q : Fin 64) :
    val_main_call3_v5 (F := Ideal) x0 x1 x2 x3 x4 x5 x6 (ix2 r q)
      = Cert.Spec.biasedRow (val_main_v86 (F := Ideal) x0 x1 x2 x3 x4 x5) (val_main_v87 (F := Ideal) x6) r q
        - Cert.Spec.rowMax (Cert.Spec.biasedRow (val_main_v86 (F := Ideal) x0 x1 x2 x3 x4 x5) (val_main_v87 (F := Ideal) x6) r) := by
  rw [val_main_call3_v5_apply, biased_apply, val_main_call3_v4_apply, val_main_call3_v3_apply]
  have e : idx_main_call3_v3 (idx_main_call3_v4 (ix2 r q)) = ix1 r := funext fun a => by match a with | ⟨0, _⟩ => rfl
  rw [e, rowmax_apply]
  rfl

/-- The row's sum of exponentials, taken from 0. -/
theorem expsum_apply (r : Fin 50000) :
    val_main_call3_v7 (F := Ideal) x0 x1 x2 x3 x4 x5 x6 (ix1 r)
      = ∑ q : Fin 64, Ideal.exp
          (Cert.Spec.biasedRow (val_main_v86 (F := Ideal) x0 x1 x2 x3 x4 x5) (val_main_v87 (F := Ideal) x6) r q
            - Cert.Spec.rowMax (Cert.Spec.biasedRow (val_main_v86 (F := Ideal) x0 x1 x2 x3 x4 x5) (val_main_v87 (F := Ideal) x6) r)) := by
  rw [val_main_call3_v7_apply, val_main_call3_cst_1_apply]
  show Ideal.ofBits .f32 0x00000000#32 + _ = _
  rw [Ideal.ofBits_zero_f32, zero_add]
  refine Finset.sum_congr rfl fun k _ => ?_
  have e : idx_main_call3_v7 (ix1 r) k = ix2 r k := funext fun a => by match a with | ⟨0, _⟩ => rfl | ⟨1, _⟩ => rfl
  rw [e, val_main_call3_v6_apply, shifted_apply]
  simp only [Ideal.hostUnary_exp_def]

/-- The closing step: the reference's result is the logarithmic softmax of the biased features, row by row. -/
theorem lsm :
    val_main_v90 (F := Ideal) x0 x1 x2 x3 x4 x5 x6
      = Cert.Spec.biasLogSoftmax (val_main_v86 (F := Ideal) x0 x1 x2 x3 x4 x5) (val_main_v87 (F := Ideal) x6) := by
  funext i
  obtain ⟨r, q, rfl⟩ : ∃ (r : Fin 50000) (q : Fin 64), i = ix2 r q := ⟨i 0, i 1, eq_ix2 i⟩
  rw [val_main_v90_apply, shifted_apply, val_main_call3_v10_apply, val_main_call3_v9_apply, val_main_call3_v8_apply]
  have e : idx_main_call3_v8 (idx_main_call3_v10 (ix2 r q)) = ix1 r := funext fun a => by match a with | ⟨0, _⟩ => rfl
  rw [e, expsum_apply, Cert.Spec.biasLogSoftmax_apply]
  simp only [Ideal.subf_def, Ideal.hostUnary_log_def]

end

end Cert.ReferenceIdeal.RefSoftmax

end
-- ==== Proof.RefNet.lean ====
/-
  The reference's result is the network: its stages regrouped step by step (the two products, the bias and rectifier,
  the two mixings along the edges, the closing logarithmic softmax).
-/
import proofs.«123015_j22625887715699_1_alg».proof.Proof.RefValue
import proofs.«123015_j22625887715699_1_alg».proof.Proof.RefSoftmax

noncomputable section

namespace Cert.ReferenceIdeal.RefValue

open Idealize.ShloMosaic Cert.ReferenceIdeal Cert.ReferenceIdeal.Read

/-- The reference's last stage, as a function of the seven arguments, is `net` of them. -/
theorem ref_net (x0 : (⟨S50000x256, .f32⟩ : BufTy).Contents (Elt Ideal)) (x1 : (⟨S2x1600000, .i32⟩ : BufTy).Contents (Elt Ideal)) (x2 : (⟨S1600000, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v90 (F := Ideal) x0 x1 x2 x3 x4 x5 x6 = net x0 x1 x2 x3 x4 x5 x6 := by
  rw [Cert.ReferenceIdeal.RefSoftmax.lsm, v86_eq, dot2, relu1, v45_eq, dot1]
  rfl

end Cert.ReferenceIdeal.RefValue

end
-- ==== Proof.lean ====
/-
  A two-layer graph-convolution network on 50000 nodes and 1.6 million weighted edges (self loops appended): the node
  features are multiplied by a weight matrix, mixed along the edges — each target row receives the sum, over the edges
  that end there, of the source row scaled by the edge's weight and by degree^(-1/2) at both ends —, a bias is added,
  and the first layer ends with the rectifier, the second with the logarithmic softmax of each row.

  The kernel program computes the two products, the bias-and-rectifier and the bias-and-softmax in four launches over row
  blocks (2000 rows for the products, 5000 for the row-wise steps) and leaves the mixing to host operations; the
  reference is host operations throughout. On the extended reals the two agree entry by entry:

  * a product's row block is the rows of the whole product (a sum over the contracted index, whatever the blocking),
    and rounding the operands to a shorter format is the identity;
  * the row-wise steps act on each row alone, so a block of rows of the result is the result of the block of rows; the
    lane maximum and the host's maximum are one fold of max from −∞, the lane sum and the host's sum one sum;
  * the mixing along the edges, and the edges' normalised weights, are the very same host operations in both programs:
    they are carried as one function and never opened (the reference computes the weights once per layer, the kernel
    program once: the same term).

  No step divides, cancels or distributes, so the equality holds for every extended-real input and the precondition
  (finite inputs) is not used. The three frames: the two kernel programs' are generated whole; the reference's is its
  run with the result dropped. The idealisation rewrote nothing, so `preserves` is trivial.
-/
import proofs.«123015_j22625887715699_1_alg».proof.Defs
import proofs.«123015_j22625887715699_1_alg».proof.Proof.Gen.Kernel
import proofs.«123015_j22625887715699_1_alg».proof.Proof.Gen.Kernel.Frame
import proofs.«123015_j22625887715699_1_alg».proof.Proof.Gen.KernelIdeal
import proofs.«123015_j22625887715699_1_alg».proof.Proof.Gen.KernelIdeal.Frame
import proofs.«123015_j22625887715699_1_alg».proof.Proof.Gen.ReferenceIdeal
import proofs.«123015_j22625887715699_1_alg».proof.Proof.Gen.Pre_finite_inputs
import proofs.«123015_j22625887715699_1_alg».proof.Proof.KernelRun
import proofs.«123015_j22625887715699_1_alg».proof.Proof.KernelValue
import proofs.«123015_j22625887715699_1_alg».proof.Proof.RefRunByHand
import proofs.«123015_j22625887715699_1_alg».proof.Proof.RefNet
import Idealize.ShloMosaic.Adequacy
import Idealize.ShloMosaic.Init

noncomputable section

namespace Cert.Proof

open Idealize.ShloMosaic Idealize.SL.Sem

/-- The kernel program as printed runs and keeps its arguments: the generated frame. -/
theorem frame_kernel : @Cert.frame_Kernel Cert.Kernel.Gen.facts Cert.Pre_finite_inputs.Gen.facts :=
  fun m ρ _ => Cert.Kernel.Gen.frame m ρ

/-- The idealised kernel program runs and keeps its arguments: the generated frame. -/
theorem frame_kernelIdeal : @Cert.frame_KernelIdeal Cert.KernelIdeal.Gen.facts Cert.Pre_finite_inputs.Gen.facts :=
  fun m ρ _ => Cert.KernelIdeal.Gen.frame m ρ

/-- The reference runs and keeps its arguments: its run, the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ByHand.run m ρ)

/-- The idealisation rewrote no operation. -/
theorem preserves : Cert.preserves_Kernel_KernelIdeal := trivial

/-- From memories that agree on the seven arguments both idealised programs end with the network of those arguments
    in their result arrays, and with their arguments unchanged. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.RefValue.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Val.kernel_value m ρ c), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.ByHand.run m' ρ')
    obtain ⟨e0, e1, e2, e3, e4, e5, e6⟩ := hagree c
    rw [Cert.ReferenceIdeal.RefValue.ref_net, e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
